-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x28x28x512 : Shape := ⟨4, ![4, 28, 28, 512]⟩
abbrev S512x64 : Shape := ⟨2, ![512, 64]⟩
abbrev S64 : Shape := ⟨1, ![64]⟩
abbrev S64x512 : Shape := ⟨2, ![64, 512]⟩
abbrev S_ : Shape := ⟨0, ![]⟩

class Facts : Prop where
  bcast_S_S4x28x28x512 : S_.BroadcastsInDim S4x28x28x512 (![] : Fin 0 → Fin S4x28x28x512.rank)
  reducesTo_S4x28x28x512_S_d0_1_2_3 : S4x28x28x512.ReducesTo [0, 1, 2, 3] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  main_v18

def fn {F : FTy → Type} [FloatOps F] (main_arg0 : FVec F S4x28x28x512 .f32) (main_arg1 : FVec F S512x64 .f32) (main_arg2 : FVec F S64 .f32) (main_arg3 : FVec F S64x512 .f32) : IVec S_ 1 :=
  let main_v0 : FVec F S4x28x28x512 .f32 := Host.absf main_arg0
  let main_cst : FVec F S_ .f32 := constant S_ .f32 0x7F800000#32
  let main_v1 : FVec F S4x28x28x512 .f32 := broadcastInDim S4x28x28x512 ![] bcast_S_S4x28x28x512 main_cst
  let main_v2 : IVec S4x28x28x512 1 := cmpf .olt main_v0 main_v1
  let main_c : IVec S_ 1 := constantI S_ 1 1#1
  let main_v3 : IVec S_ 1 := (fun x v => Host.reduce IntOp.andi x v reducesTo_S4x28x28x512_S_d0_1_2_3 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_v13 main_v16
-- ==== Kernel.lean ====
abbrev S4x28x28x512 : Shape := ⟨4, ![4, 28, 28, 512]⟩
abbrev S512x64 : Shape := ⟨2, ![512, 64]⟩
abbrev S64 : Shape := ⟨1, ![64]⟩
abbrev S64x512 : Shape := ⟨2, ![64, 512]⟩
abbrev S4x784x512 : Shape := ⟨3, ![4, 784, 512]⟩
abbrev S4x64x512 : Shape := ⟨3, ![4, 64, 512]⟩
abbrev S1x784x512 : Shape := ⟨3, ![1, 784, 512]⟩
abbrev S1x64x512 : Shape := ⟨3, ![1, 64, 512]⟩
abbrev S784x512 : Shape := ⟨2, ![784, 512]⟩
abbrev S784x64 : Shape := ⟨2, ![784, 64]⟩
abbrev S1x64 : Shape := ⟨2, ![1, 64]⟩
abbrev S784 : Shape := ⟨1, ![784]⟩
abbrev S784x1 : Shape := ⟨2, ![784, 1]⟩
abbrev S64x784 : Shape := ⟨2, ![64, 784]⟩
abbrev S64x1 : Shape := ⟨2, ![64, 1]⟩
abbrev S4x32768 : Shape := ⟨2, ![4, 32768]⟩
abbrev S_ : Shape := ⟨0, ![]⟩
abbrev S4 : Shape := ⟨1, ![4]⟩
abbrev S4x1 : Shape := ⟨2, ![4, 1]⟩

abbrev nBuf : Space → Nat
  | .hbm => 17
  | .vmem => 7
  | .smem => 0
  | _ => 0

abbrev bufTy : (tb : Table) → Fin (tcTables nBuf tb) → BufTy
  | .hbm, ⟨0, _⟩ => ⟨S4x28x28x512, .f32⟩
  | .hbm, ⟨1, _⟩ => ⟨S512x64, .f32⟩
  | .hbm, ⟨2, _⟩ => ⟨S64, .f32⟩
  | .hbm, ⟨3, _⟩ => ⟨S64x512, .f32⟩
  | .hbm, ⟨4, _⟩ => ⟨S4x784x512, .f32⟩
  | .hbm, ⟨5, _⟩ => ⟨S4x64x512, .f32⟩
  | .hbm, ⟨6, _⟩ => ⟨S4x32768, .f32⟩
  | .hbm, ⟨7, _⟩ => ⟨S4x32768, .f32⟩
  | .hbm, ⟨8, _⟩ => ⟨S_, .f32⟩
  | .hbm, ⟨9, _⟩ => ⟨S4, .f32⟩
  | .hbm, ⟨10, _⟩ => ⟨S4x1, .f32⟩
  | .hbm, ⟨11, _⟩ => ⟨S_, .f32⟩
  | .hbm, ⟨12, _⟩ => ⟨S4x1, .f32⟩
  | .hbm, ⟨13, _⟩ => ⟨S4x1, .f32⟩
  | .hbm, ⟨14, _⟩ => ⟨S4x1, .f32⟩
  | .hbm, ⟨15, _⟩ => ⟨S4x32768, .f32⟩
  | .hbm, ⟨16, _⟩ => ⟨S4x32768, .f32⟩
  | .local _ .vmem, ⟨0, _⟩ => ⟨S1x784x512, .f32⟩
  | .local _ .vmem, ⟨1, _⟩ => ⟨S1x784x512, .f32⟩
  | .local _ .vmem, ⟨2, _⟩ => ⟨S512x64, .f32⟩
  | .local _ .vmem, ⟨3, _⟩ => ⟨S64, .f32⟩
  | .local _ .vmem, ⟨4, _⟩ => ⟨S64x512, .f32⟩
  | .local _ .vmem, ⟨5, _⟩ => ⟨S1x64x512, .f32⟩
  | .local _ .vmem, ⟨6, _⟩ => ⟨S1x64x512, .f32⟩
  | _, _ => ⟨S4x28x28x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x784x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x28x28x512_S4x784x512 : S4x28x28x512.ShapeCasts S4x784x512
  inb_S1x784x512_S1x784x512_0_0_0 : ∀ a, (![0, 0, 0] : Fin 3 → Nat) a + S1x784x512.size a ≤ S1x784x512.size a
  h_S1x784x512 : 0 < S1x784x512.numel
  shapeCasts_S1x784x512_S784x512 : S1x784x512.ShapeCasts S784x512
  inb_S512x64_S512x64_0_0 : ∀ a, (![0, 0] : Fin 2 → Nat) a + S512x64.size a ≤ S512x64.size a
  h_S512x64 : 0 < S512x64.numel
  inb_S64_S64_0 : ∀ a, (![0] : Fin 1 → Nat) a + S64.size a ≤ S64.size a
  h_S64 : 0 < S64.numel
  inb_S64x512_S64x512_0_0 : ∀ a, (![0, 0] : Fin 2 → Nat) a + S64x512.size a ≤ S64x512.size a
  h_S64x512 : 0 < S64x512.numel
  bitsLt_bf16_f32 : FTy.bits .bf16 < FTy.bits .f32
  shapeCasts_S64_S1x64 : S64.ShapeCasts S1x64
  broadcasts_S1x64_S784x64 : S1x64.Broadcasts S784x64
  reduces_S784x64_S784 : S784x64.Reduces [1] S784
  shapeCasts_S784_S784x1 : S784.ShapeCasts S784x1
  broadcasts_S784x1_S784x64 : S784x1.Broadcasts S784x64
  transposes_S64x512_p1_0_S512x64 : S64x512.Transposes [1, 0] S512x64
  reduces_S784x512_S784 : S784x512.Reduces [1] S784
  reduces_S64x512_S64 : S64x512.Reduces [1] S64
  reduces_S784x64_S64 : S784x64.Reduces [0] S64
  transposes_S784x64_p1_0_S64x784 : S784x64.Transposes [1, 0] S64x784
  shapeCasts_S64_S64x1 : S64.ShapeCasts S64x1
  broadcasts_S64x1_S64x512 : S64x1.Broadcasts S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  shapeCasts_S4x64x512_S4x32768 : S4x64x512.ShapeCasts S4x32768
  reducesTo_S4x32768_S4_d1 : S4x32768.ReducesTo [1] S4
  h_S_ : 0 < S_.numel
  bcast_S4_S4x1_0 : S4.BroadcastsInDim S4x1 (![0] : Fin 1 → Fin S4x1.rank)
  bcast_S_S4x1 : S_.BroadcastsInDim S4x1 (![] : Fin 0 → Fin S4x1.rank)
  bcast_S4x1_S4x32768_0_1 : S4x1.BroadcastsInDim S4x32768 (![0, 1] : Fin 2 → Fin S4x32768.rank)
  dot_S784x512_S512x64_S784x64_1_0_0_1_n_n_wf : DotDims.WF S784x512 S512x64 S784x64 [1] [0] [0] [1] [] []
  dot_S64x784_S784x512_S64x512_1_0_0_1_n_n_wf : DotDims.WF S64x784 S784x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x784x512.size a ≤ S4x784x512.size a
  hwx0_0 : ∀ i : grid0.Coords, EltTy.bits .f32 = 32 ∨ (Rect.block (s := S4x784x512) S1x784x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x512.size a ≤ S4x64x512.size a
  hwx0_4 : ∀ i : grid0.Coords, EltTy.bits .f32 = 32 ∨ (Rect.block (s := S4x64x512) S1x64x512.size (cc0_transform_4 i) (hinb0_4 i)).WholeWords (EltTy.packing .f32)

variable [Facts₀]

def dot_S784x512_S512x64_S784x64_1_0_0_1_n_n : DotDims S784x512 S512x64 S784x64 where
  lhsContracting := [1]
  rhsContracting := [0]
  lhsNonContracting := [0]
  rhsNonContracting := [1]
  lhsBatch := []
  rhsBatch := []
  wf := dot_S784x512_S512x64_S784x64_1_0_0_1_n_n_wf
def dot_S64x784_S784x512_S64x512_1_0_0_1_n_n : DotDims S64x784 S784x512 S64x512 where
  lhsContracting := [1]
  rhsContracting := [0]
  lhsNonContracting := [0]
  rhsNonContracting := [1]
  lhsBatch := []
  rhsBatch := []
  wf := dot_S64x784_S784x512_S64x512_1_0_0_1_n_n_wf

abbrev win0_0 : Pipeline.Window sig grid0 :=
  Pipeline.Window.ofSpec (Memref.whole main_v0) S1x784x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x28x28x512 : Shape := ⟨4, ![4, 28, 28, 512]⟩
abbrev S512x64 : Shape := ⟨2, ![512, 64]⟩
abbrev S64 : Shape := ⟨1, ![64]⟩
abbrev S64x512 : Shape := ⟨2, ![64, 512]⟩
abbrev S4x28x28x64 : Shape := ⟨4, ![4, 28, 28, 64]⟩
abbrev S1x1x1x64 : Shape := ⟨4, ![1, 1, 1, 64]⟩
abbrev S_ : Shape := ⟨0, ![]⟩
abbrev S4x28x28 : Shape := ⟨3, ![4, 28, 28]⟩
abbrev S4x28x28x1 : Shape := ⟨4, ![4, 28, 28, 1]⟩
abbrev S4x28x28x64x1 : Shape := ⟨5, ![4, 28, 28, 64, 1]⟩
abbrev S4x28x28x1x512 : Shape := ⟨5, ![4, 28, 28, 1, 512]⟩
abbrev S1x1x1x64x512 : Shape := ⟨5, ![1, 1, 1, 64, 512]⟩
abbrev S4x28x28x64x512 : Shape := ⟨5, ![4, 28, 28, 64, 512]⟩
abbrev S4x64x512 : Shape := ⟨3, ![4, 64, 512]⟩
abbrev S4x32768 : Shape := ⟨2, ![4, 32768]⟩
abbrev S4 : Shape := ⟨1, ![4]⟩
abbrev S4x1 : Shape := ⟨2, ![4, 1]⟩

abbrev nBuf : Space → Nat
  | .hbm => 53
  | .vmem => 0
  | .smem => 0
  | _ => 0

abbrev bufTy : (tb : Table) → Fin (tcTables nBuf tb) → BufTy
  | .hbm, ⟨0, _⟩ => ⟨S4x28x28x512, .f32⟩
  | .hbm, ⟨1, _⟩ => ⟨S512x64, .f32⟩
  | .hbm, ⟨2, _⟩ => ⟨S64, .f32⟩
  | .hbm, ⟨3, _⟩ => ⟨S64x512, .f32⟩
  | .hbm, ⟨4, _⟩ => ⟨S4x28x28x64, .f32⟩
  | .hbm, ⟨5, _⟩ => ⟨S1x1x1x64, .f32⟩
  | .hbm, ⟨6, _⟩ => ⟨S4x28x28x64, .f32⟩
  | .hbm, ⟨7, _⟩ => ⟨S4x28x28x64, .f32⟩
  | .hbm, ⟨8, _⟩ => ⟨S_, .f32⟩
  | .hbm, ⟨9, _⟩ => ⟨S4x28x28, .f32⟩
  | .hbm, ⟨10, _⟩ => ⟨S_, .f32⟩
  | .hbm, ⟨11, _⟩ => ⟨S4x28x28, .f32⟩
  | .hbm, ⟨12, _⟩ => ⟨S4x28x28, .f32⟩
  | .hbm, ⟨13, _⟩ => ⟨S4x28x28x1, .f32⟩
  | .hbm, ⟨14, _⟩ => ⟨S4x28x28x64, .f32⟩
  | .hbm, ⟨15, _⟩ => ⟨S4x28x28x64, .f32⟩
  | .hbm, ⟨16, _⟩ => ⟨S4x28x28x64, .f32⟩
  | .hbm, ⟨17, _⟩ => ⟨S_, .f32⟩
  | .hbm, ⟨18, _⟩ => ⟨S4x28x28, .f32⟩
  | .hbm, ⟨19, _⟩ => ⟨S4x28x28x1, .f32⟩
  | .hbm, ⟨20, _⟩ => ⟨S4x28x28x64, .f32⟩
  | .hbm, ⟨21, _⟩ => ⟨S4x28x28x64, .f32⟩
  | .hbm, ⟨22, _⟩ => ⟨S4x28x28x64x1, .f32⟩
  | .hbm, ⟨23, _⟩ => ⟨S4x28x28x1x512, .f32⟩
  | .hbm, ⟨24, _⟩ => ⟨S1x1x1x64x512, .f32⟩
  | .hbm, ⟨25, _⟩ => ⟨S4x28x28x64x512, .f32⟩
  | .hbm, ⟨26, _⟩ => ⟨S4x28x28x64x512, .f32⟩
  | .hbm, ⟨27, _⟩ => ⟨S4x28x28x64x512, .f32⟩
  | .hbm, ⟨28, _⟩ => ⟨S4x28x28x64x512, .f32⟩
  | .hbm, ⟨29, _⟩ => ⟨S4x28x28x64x512, .f32⟩
  | .hbm, ⟨30, _⟩ => ⟨S4x28x28x64x512, .f32⟩
  | .hbm, ⟨31, _⟩ => ⟨S_, .f32⟩
  | .hbm, ⟨32, _⟩ => ⟨S4x28x28x64, .f32⟩
  | .hbm, ⟨33, _⟩ => ⟨S4x28x28x64x1, .f32⟩
  | .hbm, ⟨34, _⟩ => ⟨S_, .f32⟩
  | .hbm, ⟨35, _⟩ => ⟨S4x28x28x64x1, .f32⟩
  | .hbm, ⟨36, _⟩ => ⟨S4x28x28x64x1, .f32⟩
  | .hbm, ⟨37, _⟩ => ⟨S4x28x28x64x1, .f32⟩
  | .hbm, ⟨38, _⟩ => ⟨S4x28x28x64x512, .f32⟩
  | .hbm, ⟨39, _⟩ => ⟨S4x28x28x64x512, .f32⟩
  | .hbm, ⟨40, _⟩ => ⟨S_, .f32⟩
  | .hbm, ⟨41, _⟩ => ⟨S4x64x512, .f32⟩
  | .hbm, ⟨42, _⟩ => ⟨S4x32768, .f32⟩
  | .hbm, ⟨43, _⟩ => ⟨S4x32768, .f32⟩
  | .hbm, ⟨44, _⟩ => ⟨S_, .f32⟩
  | .hbm, ⟨45, _⟩ => ⟨S4, .f32⟩
  | .hbm, ⟨46, _⟩ => ⟨S4x1, .f32⟩
  | .hbm, ⟨47, _⟩ => ⟨S_, .f32⟩
  | .hbm, ⟨48, _⟩ => ⟨S4x1, .f32⟩
  | .hbm, ⟨49, _⟩ => ⟨S4x1, .f32⟩
  | .hbm, ⟨50, _⟩ => ⟨S4x1, .f32⟩
  | .hbm, ⟨51, _⟩ => ⟨S4x32768, .f32⟩
  | .hbm, ⟨52, _⟩ => ⟨S4x32768, .f32⟩
  | _, _ => ⟨S4x28x28x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S4x28x28x64_0_1_2_3 : S1x1x1x64.BroadcastsInDim S4x28x28x64 (![0, 1, 2, 3] : Fin 4 → Fin S4x28x28x64.rank)
  reducesTo_S4x28x28x64_S4x28x28_d3 : S4x28x28x64.ReducesTo [3] S4x28x28
  h_S_ : 0 < S_.numel
  bcast_S_S4x28x28 : S_.BroadcastsInDim S4x28x28 (![] : Fin 0 → Fin S4x28x28.rank)
  bcast_S4x28x28_S4x28x28x1_0_1_2 : S4x28x28.BroadcastsInDim S4x28x28x1 (![0, 1, 2] : Fin 3 → Fin S4x28x28x1.rank)
  bcast_S4x28x28x1_S4x28x28x64_0_1_2_3 : S4x28x28x1.BroadcastsInDim S4x28x28x64 (![0, 1, 2, 3] : Fin 4 → Fin S4x28x28x64.rank)
  bcast_S4x28x28x64_S4x28x28x64x1_0_1_2_3 : S4x28x28x64.BroadcastsInDim S4x28x28x64x1 (![0, 1, 2, 3] : Fin 4 → Fin S4x28x28x64x1.rank)
  bcast_S4x28x28x512_S4x28x28x1x512_0_1_2_4 : S4x28x28x512.BroadcastsInDim S4x28x28x1x512 (![0, 1, 2, 4] : Fin 4 → Fin S4x28x28x1x512.rank)
  bcast_S64x512_S1x1x1x64x512_3_4 : S64x512.BroadcastsInDim S1x1x1x64x512 (![3, 4] : Fin 2 → Fin S1x1x1x64x512.rank)
  bcast_S4x28x28x1x512_S4x28x28x64x512_0_1_2_3_4 : S4x28x28x1x512.BroadcastsInDim S4x28x28x64x512 (![0, 1, 2, 3, 4] : Fin 5 → Fin S4x28x28x64x512.rank)
  bcast_S1x1x1x64x512_S4x28x28x64x512_0_1_2_3_4 : S1x1x1x64x512.BroadcastsInDim S4x28x28x64x512 (![0, 1, 2, 3, 4] : Fin 5 → Fin S4x28x28x64x512.rank)
  bcast_S4x28x28x64x1_S4x28x28x64x512_0_1_2_3_4 : S4x28x28x64x1.BroadcastsInDim S4x28x28x64x512 (![0, 1, 2, 3, 4] : Fin 5 → Fin S4x28x28x64x512.rank)
  reducesTo_S4x28x28x64x512_S4x28x28x64_d4 : S4x28x28x64x512.ReducesTo [4] S4x28x28x64
  bcast_S_S4x28x28x64x1 : S_.BroadcastsInDim S4x28x28x64x1 (![] : Fin 0 → Fin S4x28x28x64x1.rank)
  reducesTo_S4x28x28x64x512_S4x64x512_d1_2 : S4x28x28x64x512.ReducesTo [1, 2] S4x64x512
  shapeCasts_S4x64x512_S4x32768 : S4x64x512.ShapeCasts S4x32768
  reducesTo_S4x32768_S4_d1 : S4x32768.ReducesTo [1] S4
  bcast_S4_S4x1_0 : S4.BroadcastsInDim S4x1 (![0] : Fin 1 → Fin S4x1.rank)
  bcast_S_S4x1 : S_.BroadcastsInDim S4x1 (![] : Fin 0 → Fin S4x1.rank)
  bcast_S4x1_S4x32768_0_1 : S4x1.BroadcastsInDim S4x32768 (![0, 1] : Fin 2 → Fin S4x32768.rank)
  dot_S4x28x28x512_S512x64_S4x28x28x64_3_0_012_1_n_n_wf : DotDims.WF S4x28x28x512 S512x64 S4x28x28x64 [3] [0] [0, 1, 2] [1] [] []

variable [Facts₀]

def dot_S4x28x28x512_S512x64_S4x28x28x64_3_0_012_1_n_n : DotDims S4x28x28x512 S512x64 S4x28x28x64 where
  lhsContracting := [3]
  rhsContracting := [0]
  lhsNonContracting := [0, 1, 2]
  rhsNonContracting := [1]
  lhsBatch := []
  rhsBatch := []
  wf := dot_S4x28x28x512_S512x64_S4x28x28x64_3_0_012_1_n_n_wf

class Facts : Prop extends Facts₀ where

variable [Facts]
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.LibBatchNorm.lean ====
/-
  Batch normalisation of a column of real numbers, on the extended reals, in its two usual forms, and the proof that
  they are one function.

  A column `z : Fin n → EReal` of real entries has sum `S = ∑ z`, sum of squares `Q = ∑ z²`, mean `m = S / n`.

  * The ONE-PASS form computes the variance as `Q / n − m²` (the mean of the squares minus the square of the mean) and
    folds the normalisation into one affine map `z ↦ z · scale + shift` with `scale = γ · rsqrt(var + ε)` and
    `shift = β − m · scale`.
  * The TWO-PASS form computes the variance as the mean of the squared deviations `(∑ (z − m)²) / n` and normalises as
    `γ · (z − m) · rsqrt(var + ε) + β`.

  Over the reals the two variances are equal (expand the square; `∑ z = n · m`), both are non-negative (the second is a
  sum of squares), so with `ε > 0` the reciprocal square root is taken at a positive real and is a real; the rest is the
  distributive law, which the extended reals have at finite values only — hence the hypothesis that every entry is real.

  * `IsReal`: an extended real that is a real number, with its closure under the field operations, finite sums, `max`,
    and the ideal operations `div` (by a nonzero real), `rsqrt` (of a positive real), `exp`, `log1p` (of a real above −1).
  * `real_sum_sq_dev`, `real_variance`: the variance identity over the reals.
  * `fold_eq`, `fold_eq'`, `fold_real`, `var_add_eps_pos`: the two forms agree, their value is real, and `var + ε` is a
    positive real.
-/
import Idealize.ShloMosaic.PureOps.Ideal
import proofs.«129741_j66365834658084_2_alg».proof.Proof.LibERealFinite

noncomputable section

open scoped BigOperators

namespace Cert.LibBatchNorm

open Idealize.ShloMosaic
open Cert.LibERealFinite

/-! ## Real extended reals -/

/-- An extended real that is a real number (neither infinity). -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

theorem IsReal.ne_top {x : EReal} (h : IsReal x) : x ≠ ⊤ := by
  obtain ⟨a, rfl⟩ := h; exact EReal.coe_ne_top a
theorem IsReal.ne_bot {x : EReal} (h : IsReal x) : x ≠ ⊥ := by
  obtain ⟨a, rfl⟩ := h; exact EReal.coe_ne_bot a

/-- An extended real that is neither infinity is a real. -/
theorem isReal_of_ne {x : EReal} (ht : x ≠ ⊤) (hb : x ≠ ⊥) : IsReal x := by
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
theorem IsReal.min {x y : EReal} (hx : IsReal x) (hy : IsReal y) : IsReal (min x y) := by
  rcases le_total x y with h | h
  · rw [min_eq_left h]; exact hx
  · rw [min_eq_right h]; exact hy

/-- A finite sum of reals is real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- A sum over a finite type of reals is real. -/
theorem IsReal.sum_univ {ι : Type*} [Fintype ι] (f : ι → EReal) (h : ∀ i, IsReal (f i)) : IsReal (∑ i, f i) :=
  IsReal.sum _ f fun i _ => h i

/-- The ideal quotient of a real by a nonzero real is the real quotient. -/
theorem div_coe_coe (a : ℝ) {b : ℝ} (hb : b ≠ 0) : Ideal.div (a : EReal) (b : EReal) = ((a * (1 / b) : ℝ) : EReal) := by
  rw [Ideal.div_coe hb, ← EReal.coe_mul]

theorem IsReal.div {x c : EReal} (hx : IsReal x) (hc : IsReal c) (h0 : c ≠ 0) : IsReal (Ideal.div x c) := by
  obtain ⟨a, rfl⟩ := hx; obtain ⟨b, rfl⟩ := hc
  exact ⟨_, div_coe_coe a (EReal.coe_ne_zero.mp h0)⟩

/-- The ideal reciprocal square root of a positive real is the real one. -/
theorem rsqrt_coe_pos {a : ℝ} (h : 0 < a) : Ideal.rsqrt (a : EReal) = (((Real.sqrt a)⁻¹ : ℝ) : EReal) := by
  rw [Ideal.rsqrt_coe, if_neg (not_lt.mpr h.le), if_neg h.ne']

theorem IsReal.rsqrt {x : EReal} (hx : IsReal x) (h0 : 0 < x) : IsReal (Ideal.rsqrt x) := by
  obtain ⟨a, rfl⟩ := hx
  exact ⟨_, rsqrt_coe_pos (EReal.coe_pos.mp h0)⟩

/-- The reciprocal square root of a positive real is positive. -/
theorem rsqrt_pos {x : EReal} (hx : IsReal x) (h0 : 0 < x) : 0 < Ideal.rsqrt x := by
  obtain ⟨a, rfl⟩ := hx
  have ha : 0 < a := EReal.coe_pos.mp h0
  rw [rsqrt_coe_pos ha]
  exact EReal.coe_pos.mpr (inv_pos.mpr (Real.sqrt_pos.mpr ha))

theorem IsReal.exp {x : EReal} (hx : IsReal x) : IsReal (Ideal.exp x) := by
  obtain ⟨a, rfl⟩ := hx; exact ⟨Real.exp a, Ideal.exp_coe a⟩

/-- The exponential of a real is positive. -/
theorem exp_pos {x : EReal} (hx : IsReal x) : 0 < Ideal.exp x := by
  obtain ⟨a, rfl⟩ := hx
  rw [Ideal.exp_coe]; exact EReal.coe_pos.mpr (Real.exp_pos a)

/-- `log (1 + x)` at a real `x > −1` is the real logarithm. -/
theorem log1p_coe_of_lt {a : ℝ} (h : -1 < a) : Ideal.log1p (a : EReal) = ((Real.log (1 + a) : ℝ) : EReal) := by
  rw [Ideal.log1p, ← EReal.coe_one, ← EReal.coe_add, Ideal.log_coe, if_neg (by linarith)]

theorem IsReal.log1p {x : EReal} (hx : IsReal x) (h : -1 < x) : IsReal (Ideal.log1p x) := by
  obtain ⟨a, rfl⟩ := hx
  have ha : -1 < a := by
    have : ((-1 : ℝ) : EReal) < (a : EReal) := by simpa using h
    exact EReal.coe_lt_coe_iff.mp this
  exact ⟨_, log1p_coe_of_lt ha⟩

/-! ## The variance identity over the reals -/

/-- The sum of the squared deviations from any number `m`: expand the square. -/
theorem real_sum_sq_dev {n : ℕ} (z : Fin n → ℝ) (m : ℝ) :
    ∑ r, (z r - m) * (z r - m) = (∑ r, z r * z r) - 2 * m * (∑ r, z r) + n * (m * m) := by
  have h : ∀ r, (z r - m) * (z r - m) = z r * z r - 2 * m * z r + m * m := fun r => by ring
  simp only [h]
  rw [Finset.sum_add_distrib, Finset.sum_sub_distrib, ← Finset.mul_sum, Finset.sum_const, Finset.card_univ,
    Fintype.card_fin, nsmul_eq_mul]

/-- The mean of the squared deviations from the mean is the mean of the squares minus the square of the mean. -/
theorem real_variance {n : ℕ} (hn : n ≠ 0) (z : Fin n → ℝ) :
    (∑ r, (z r - (∑ s, z s) * (1 / (n : ℝ))) * (z r - (∑ s, z s) * (1 / (n : ℝ)))) * (1 / (n : ℝ))
      = (∑ r, z r * z r) * (1 / (n : ℝ)) - ((∑ s, z s) * (1 / (n : ℝ))) * ((∑ s, z s) * (1 / (n : ℝ))) := by
  have hn' : (n : ℝ) ≠ 0 := Nat.cast_ne_zero.mpr hn
  rw [real_sum_sq_dev]
  field_simp
  ring

/-- The mean of the squared deviations is non-negative. -/
theorem real_variance_nonneg {n : ℕ} (z : Fin n → ℝ) (m : ℝ) :
    0 ≤ (∑ r, (z r - m) * (z r - m)) * (1 / (n : ℝ)) :=
  mul_nonneg (Finset.sum_nonneg fun r _ => mul_self_nonneg _) (by positivity)

/-! ## The folded and the two-pass normalisation agree -/

section Fold

variable {n : ℕ}

/-- With real entries, count `n ≠ 0` and `ε > 0`: the one-pass variance plus `ε` is a positive real. -/
theorem var_add_eps_pos (hn : n ≠ 0) (c : EReal) (hc : c = ((n : ℝ) : EReal)) (e : ℝ) (he : 0 < e) (eps : EReal)
    (heps : eps = (e : EReal)) (z : Fin n → EReal) (hz : ∀ r, IsReal (z r)) :
    IsReal ((Ideal.div (∑ r, z r * z r) c - Ideal.div (∑ r, z r) c * Ideal.div (∑ r, z r) c) + eps)
      ∧ 0 < (Ideal.div (∑ r, z r * z r) c - Ideal.div (∑ r, z r) c * Ideal.div (∑ r, z r) c) + eps := by
  subst hc heps
  choose z' hz' using hz
  obtain rfl : z = fun r => (z' r : EReal) := funext hz'
  have hn' : (n : ℝ) ≠ 0 := Nat.cast_ne_zero.mpr hn
  have hpos : 0 < (∑ r, z' r * z' r) * (1 / (n : ℝ)) - ((∑ s, z' s) * (1 / (n : ℝ))) * ((∑ s, z' s) * (1 / (n : ℝ))) + e := by
    rw [← real_variance hn z']
    have := real_variance_nonneg z' ((∑ s, z' s) * (1 / (n : ℝ)))
    linarith
  simp only [← EReal.coe_mul, ← coe_sum, div_coe_coe _ hn', ← EReal.coe_sub, ← EReal.coe_add]
  exact ⟨isReal_coe _, EReal.coe_pos.mpr hpos⟩

/-- **The folded batch normalisation is the two-pass one.** For a column `z` of `n ≠ 0` real entries, real `γ`, `β`
    and `ε > 0`: the affine map `z i · scale + shift` built from the sum `S` and the sum of squares `Q`
    (`mean = S / n`, `var = Q / n − mean²`, `scale = γ · rsqrt (var + ε)`, `shift = β − mean · scale`) equals
    `γ · (z i − mean) · rsqrt ((∑ (z − mean)²) / n + ε) + β`. -/
theorem fold_eq (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) :
    z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))
      = ((g * (z i - Ideal.div (∑ r, z r) c))
          * Ideal.rsqrt (Ideal.div (∑ r, (z r - Ideal.div (∑ s, z s) c) * (z r - Ideal.div (∑ s, z s) c)) c + eps)) + β := by
  subst hc heps
  choose z' hz' using hz
  obtain rfl : z = fun r => (z' r : EReal) := funext hz'
  obtain ⟨g', rfl⟩ := hg
  obtain ⟨β', rfl⟩ := hβ
  have hn' : (n : ℝ) ≠ 0 := Nat.cast_ne_zero.mpr hn
  have hvar := real_variance hn z'
  have hpos : 0 < (∑ r, z' r * z' r) * (1 / (n : ℝ)) - ((∑ s, z' s) * (1 / (n : ℝ))) * ((∑ s, z' s) * (1 / (n : ℝ))) + e := by
    rw [← hvar]
    have := real_variance_nonneg z' ((∑ s, z' s) * (1 / (n : ℝ)))
    linarith
  simp only [← EReal.coe_mul, ← coe_sum, div_coe_coe _ hn', ← EReal.coe_sub, ← EReal.coe_add]
  rw [hvar, rsqrt_coe_pos hpos]
  simp only [← EReal.coe_mul, ← EReal.coe_sub, ← EReal.coe_add]
  exact congrArg _ (by ring)

/-- The mean of a real column over a nonzero count is real. -/
theorem mean_real (hn : n ≠ 0) (c : EReal) (hc : c = ((n : ℝ) : EReal)) (z : Fin n → EReal) (hz : ∀ r, IsReal (z r)) :
    IsReal (Ideal.div (∑ r, z r) c) := by
  have hc0 : c ≠ 0 := by rw [hc]; exact EReal.coe_ne_zero.mpr (Nat.cast_ne_zero.mpr hn)
  exact IsReal.div (IsReal.sum_univ _ hz) (hc ▸ isReal_coe _) hc0

/-- The folded scale `γ · rsqrt (var + ε)` is real. -/
theorem scale_real (hn : n ≠ 0) (c : EReal) (hc : c = ((n : ℝ) : EReal)) (e : ℝ) (he : 0 < e) (eps : EReal)
    (heps : eps = (e : EReal)) (z : Fin n → EReal) (hz : ∀ r, IsReal (z r)) (g : EReal) (hg : IsReal g) :
    IsReal (g * Ideal.rsqrt ((Ideal.div (∑ r, z r * z r) c - Ideal.div (∑ r, z r) c * Ideal.div (∑ r, z r) c) + eps)) := by
  obtain ⟨hV, hVpos⟩ := var_add_eps_pos hn c hc e he eps heps z hz
  exact hg.mul (IsReal.rsqrt hV hVpos)

/-- The folded shift `β − mean · scale` is real. -/
theorem shift_real (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) :
    IsReal (β - Ideal.div (∑ r, z r) c
      * (g * Ideal.rsqrt ((Ideal.div (∑ r, z r * z r) c - Ideal.div (∑ r, z r) c * Ideal.div (∑ r, z r) c) + eps))) :=
  hβ.sub ((mean_real hn c hc z hz).mul (scale_real hn c hc e he eps heps z hz g hg))

/-- The normalised entry (in its folded form, hence in both) is real. -/
theorem fold_real (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) :
    IsReal (z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))) :=
  ((hz i).mul (scale_real hn c hc e he eps heps z hz g hg)).add (shift_real hn c hc e he eps heps z hz g β hg hβ)

/-- The same identity with the two-pass side's mean `m` and variance `v` given by name. -/
theorem fold_eq' (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) (m v : EReal) (hm : m = Ideal.div (∑ r, z r) c)
    (hv : v = Ideal.div (∑ r, (z r - m) * (z r - m)) c) :
    z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))
      = ((g * (z i - m)) * Ideal.rsqrt (v + eps)) + β := by
  subst hv; subst hm
  exact fold_eq hn c hc e he eps heps z hz g β hg hβ i

end Fold

end Cert.LibBatchNorm

end
-- ==== Proof.VladLaw.lean ====
/-
  Soft-assignment residual pooling on the extended reals: the factored form and the direct form are one function.

  A feature row `xs : Fin D → EReal` is softly assigned to K clusters: `logit k = ∑ c, xs c · W c k + B k`,
  `assign k = exp(logit k − sup logit) / ∑ j exp(logit j − sup logit)`. With real entries and K > 0 every
  assignment weight is a real number (the supremum of finitely many reals is one of them; a sum of positive reals is
  a positive real).

  For a weight `a`, a row `xs` and a centre `cs`, the weighted residual `r d = a · (xs d − cs d)` normalised by
  the square root of `max (∑ r²) ε` is, at real values and `ε > 0`,
      r d / √(max (∑ r²) ε) = u · xs d − u · cs d,   u = a · rsqrt (max (a² · ((∑ xs² − 2 · ∑ xs·cs) + ∑ cs²)) ε),
  because `∑ (a (x − c))² = a² (∑ x² − 2 ∑ x c + ∑ c²)` (expand the square) and dividing by a positive real's square
  root is multiplying by its reciprocal square root. Summed over the rows, `∑ (u·x − u·c) = ∑ u·x − (∑ u)·c`: the
  distributive law, which the extended reals have at finite values only — hence the hypothesis that all entries are
  real.
-/
import Idealize.ShloMosaic.PureOps.Ideal
import Idealize.ShloMosaic.PureOps.Ideal.Laws
import proofs.«129741_j66365834658084_2_alg».proof.Proof.LibBatchNorm
import proofs.«129741_j66365834658084_2_alg».proof.Proof.LibERealFinite

noncomputable section

open scoped BigOperators

namespace Cert.Vlad

open Idealize.ShloMosaic Cert.LibBatchNorm Cert.LibERealFinite

variable {S K D : ℕ}

/-! ## The two float literals -/

/-- The floor under the squared norm, as the programs spell it (the f32 nearest 1e-12). -/
def eps : EReal := Ideal.ofBits .f32 0x2B8CBCCC#32
/-- The factor of the cross term, as the kernel spells it. -/
def two : EReal := Ideal.ofBits .f32 0x40000000#32

/-- The cross term's factor is the real number 2. -/
theorem two_eq : two = ((2 : ℝ) : EReal) := by
  unfold two; simp [Ideal.ofBits, Ideal.ieee, -EReal.coe_mul]; norm_num

/-- The floor is a positive real. -/
theorem eps_pos : ∃ e : ℝ, 0 < e ∧ eps = (e : EReal) := by
  refine ⟨(9223372 : ℝ) * (2 : ℝ) ^ (-63 : ℤ), by positivity, ?_⟩
  unfold eps; simp [Ideal.ofBits, Ideal.ieee, -EReal.coe_mul]

/-- The coercion of the reals commutes with the maximum. -/
theorem coe_max' (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-! ## The soft assignment of one row -/

/-- The logits of a row: its product with the weight matrix plus the bias. -/
def logit (W : Fin D → Fin K → EReal) (B : Fin K → EReal) (xs : Fin D → EReal) (k : Fin K) : EReal :=
  (∑ c, xs c * W c k) + B k

/-- The softmax of the logits, shifted by their supremum. -/
def assign (W : Fin D → Fin K → EReal) (B : Fin K → EReal) (xs : Fin D → EReal) (k : Fin K) : EReal :=
  Ideal.div (Ideal.exp (logit W B xs k - ⨆ j, logit W B xs j))
    (∑ j, Ideal.exp (logit W B xs j - ⨆ i, logit W B xs i))

/-- With real entries and at least one cluster, an assignment weight is a real number. -/
theorem assign_real (hK : 0 < K) (W : Fin D → Fin K → EReal) (B : Fin K → EReal) (xs : Fin D → EReal)
    (hW : ∀ c k, IsReal (W c k)) (hB : ∀ k, IsReal (B k)) (hx : ∀ c, IsReal (xs c)) (k : Fin K) :
    IsReal (assign W B xs k) := by
  have hl : ∀ j, IsReal (logit W B xs j) := fun j =>
    (IsReal.sum_univ _ fun c => (hx c).mul (hW c j)).add (hB j)
  haveI : Nonempty (Fin K) := ⟨⟨0, hK⟩⟩
  obtain ⟨j0, hj0⟩ := exists_eq_ciSup_of_finite (f := logit W B xs)
  have hM : IsReal (⨆ j, logit W B xs j) := hj0 ▸ hl j0
  have he : ∀ j, IsReal (Ideal.exp (logit W B xs j - ⨆ i, logit W B xs i)) := fun j => ((hl j).sub hM).exp
  have hp : ∀ j, 0 < Ideal.exp (logit W B xs j - ⨆ i, logit W B xs i) := fun j => exp_pos ((hl j).sub hM)
  choose e' he' using he
  have hs : ∑ j, Ideal.exp (logit W B xs j - ⨆ i, logit W B xs i) = ((∑ j, e' j : ℝ) : EReal) := by
    rw [coe_sum]; exact Finset.sum_congr rfl fun j _ => he' j
  have hpos : 0 < ∑ j, e' j :=
    Finset.sum_pos (fun j _ => EReal.coe_pos.mp (he' j ▸ hp j)) Finset.univ_nonempty
  unfold assign
  rw [hs]
  exact IsReal.div ⟨_, he' k⟩ (isReal_coe _) (EReal.coe_ne_zero.mpr hpos.ne')

/-! ## One row's residual, normalised: the direct form and the factored one -/

/-- The factored form's per-row, per-cluster factor. -/
def scale (a : EReal) (xs cs : Fin D → EReal) : EReal :=
  a * Ideal.rsqrt (max ((a * a) * (((∑ c, xs c * xs c) - two * (∑ c, xs c * cs c)) + (∑ c, cs c * cs c))) eps)

/-- The direct form: the weighted residual over the square root of its floored squared norm. -/
def refTerm (a : EReal) (xs cs : Fin D → EReal) (d : Fin D) : EReal :=
  Ideal.div (a * (xs d - cs d)) (Ideal.sqrt (max (∑ c, (a * (xs c - cs c)) * (a * (xs c - cs c))) eps))

/-- Over the reals: the squared norm of the weighted residual, expanded. -/
theorem real_sq_norm (a : ℝ) (x c : Fin D → ℝ) :
    ∑ i, (a * (x i - c i)) * (a * (x i - c i))
      = (a * a) * (((∑ i, x i * x i) - 2 * (∑ i, x i * c i)) + (∑ i, c i * c i)) := by
  have h : ∀ i, (a * (x i - c i)) * (a * (x i - c i))
      = (a * a) * (x i * x i) - 2 * ((a * a) * (x i * c i)) + (a * a) * (c i * c i) := fun i => by ring
  simp only [h]
  rw [Finset.sum_add_distrib, Finset.sum_sub_distrib, ← Finset.mul_sum, ← Finset.mul_sum, ← Finset.mul_sum,
    ← Finset.mul_sum]
  ring

/-- At real values the direct form is the factored one, and the factor is real. -/
theorem refTerm_eq (a : EReal) (xs cs : Fin D → EReal) (ha : IsReal a) (hx : ∀ c, IsReal (xs c))
    (hc : ∀ c, IsReal (cs c)) (d : Fin D) :
    refTerm a xs cs d = scale a xs cs * xs d - scale a xs cs * cs d ∧ IsReal (scale a xs cs) := by
  obtain ⟨a', rfl⟩ := ha
  choose x' hx' using hx
  obtain rfl : xs = fun c => (x' c : EReal) := funext hx'
  choose c' hc' using hc
  obtain rfl : cs = fun c => (c' c : EReal) := funext hc'
  obtain ⟨e, he, hE⟩ := eps_pos
  unfold refTerm scale
  rw [hE, two_eq]
  simp only [← EReal.coe_mul, ← EReal.coe_sub, ← EReal.coe_add, ← coe_sum, coe_max']
  rw [← real_sq_norm a' x' c']
  have hm : 0 < max (∑ i, (a' * (x' i - c' i)) * (a' * (x' i - c' i))) e := lt_max_of_lt_right he
  have hs : Real.sqrt (max (∑ i, (a' * (x' i - c' i)) * (a' * (x' i - c' i))) e) ≠ 0 :=
    (Real.sqrt_pos.mpr hm).ne'
  rw [Ideal.sqrt_coe, if_neg (not_lt.mpr hm.le), div_coe_coe _ hs, rsqrt_coe_pos hm]
  simp only [← EReal.coe_mul, ← EReal.coe_sub]
  exact ⟨congrArg _ (by rw [one_div]; ring), isReal_coe _⟩

/-! ## Pooled over the rows -/

/-- The factored form pooled over the rows: a weighted sum of the rows minus the summed factor times the centre. -/
def kernelOut (X : Fin S → Fin D → EReal) (A : Fin S → Fin K → EReal) (C : Fin K → Fin D → EReal) (k : Fin K)
    (d : Fin D) : EReal :=
  (∑ s, scale (A s k) (X s) (C k) * X s d) - (∑ s, scale (A s k) (X s) (C k)) * C k d

/-- The direct form pooled over the rows. -/
def refOut (X : Fin S → Fin D → EReal) (A : Fin S → Fin K → EReal) (C : Fin K → Fin D → EReal) (k : Fin K)
    (d : Fin D) : EReal :=
  ∑ s, refTerm (A s k) (X s) (C k) d

/-- **At real values the two pooled forms agree.** -/
theorem kernelOut_eq_refOut (X : Fin S → Fin D → EReal) (A : Fin S → Fin K → EReal) (C : Fin K → Fin D → EReal)
    (hX : ∀ s c, IsReal (X s c)) (hA : ∀ s k, IsReal (A s k)) (hC : ∀ k c, IsReal (C k c)) (k : Fin K) (d : Fin D) :
    kernelOut X A C k d = refOut X A C k d := by
  have h := fun s => refTerm_eq (A s k) (X s) (C k) (hA s k) (hX s) (hC k) d
  unfold kernelOut refOut
  simp only [fun s => (h s).1]
  choose u hu using fun s => (h s).2
  simp only [hu]
  choose x' hx' using fun s => hX s d
  simp only [hx']
  obtain ⟨c', hc'⟩ := hC k d
  rw [hc']
  simp only [← EReal.coe_mul, ← EReal.coe_sub, ← coe_sum]
  exact congrArg _ (by rw [Finset.sum_sub_distrib, Finset.sum_mul])

end Cert.Vlad

end
-- ==== Proof.LibMaxReduce.lean ====
/-
  Maximum reductions over one axis, on the extended reals (the twin of the minimum statements).

  * `fold_max_bot`: folding `max` from the bottom element over all of a finite type gives the supremum of the family
    (both are characterised by: the result is below `z` iff every member is below `z`).
  * `ofBits_neg_inf`: the f32 pattern of `-∞` is the bottom extended real.
  * `multiReduction_maximumf_sup`: a vector max-reduction over one axis from the accumulator `-∞`, read with exact
    values, is at each result index the supremum over that axis's coordinates.
-/
import Idealize.ShloMosaic.PureOps.Ideal.Laws

noncomputable section

namespace Cert.LibMaxReduce

open Idealize.ShloMosaic

/-- Folding `max` from `⊥` over a whole finite type is the supremum of the family. -/
theorem fold_max_bot {ι : Type*} [Fintype ι] (f : ι → EReal) :
    (Finset.univ : Finset ι).fold max ⊥ f = ⨆ k, f k := by
  refine eq_of_forall_ge_iff fun z => ?_
  rw [Finset.fold_max_le, iSup_le_iff]
  exact ⟨fun h k => h.2 k (Finset.mem_univ k), fun h => ⟨bot_le, fun k _ => h k⟩⟩

/-- The f32 pattern of `-∞` is the bottom extended real. -/
theorem ofBits_neg_inf : Ideal.ofBits .f32 0xFF800000#32 = (⊥ : EReal) := by
  simp [Ideal.ofBits, Ideal.ieee]

/-- From the accumulator `-∞` (f32), a max-reduction over one axis is the supremum over that axis's coordinates. -/
theorem multiReduction_maximumf_sup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [Ideal.multiReduction_maximumf_single]
  show (Finset.univ : Finset (Fin (s.size a))).fold max (Ideal.ofBits .f32 0xFF800000#32) (src ∘ h.lift j) = _
  rw [ofBits_neg_inf, fold_max_bot]
  rfl

end Cert.LibMaxReduce

end
-- ==== Proof.LibAxisSums.lean ====
import Idealize.ShloMosaic.PureOps.Ideal.Laws
import Idealize.ShloMosaic.Lib.Pipeline.Value
import Idealize.ShloMosaic.Lib.ValueIdx

/-! # Sums over one axis of a small-rank array, read at an index by coordinates

At exact values a vector sum-reduction over one axis, from the zero word, is at a result index the sum over that axis's
coordinate of the source at the index with the coordinate put back: the middle or the last axis of a rank-3 array, the
last or the first axis of a rank-2 array. With them: a sum over a rank-1 index set is the sum over its one coordinate,
and a shape cast that removes a unit axis in second place of a rank-4 array reads the operand with `0` there. -/

namespace Cert.LibAxisSums

open Idealize.ShloMosaic Idealize.ShloMosaic.ValueIdx
open scoped BigOperators

variable {α : Type}

/-- A rank-1 index set is its one coordinate's range … -/
def idxEquiv1 {n : ℕ} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- An `[a, 1, b, c]` array cast to `[a, b, c]`: the unit axis is dropped. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    simp only [Nat.mul_one, Nat.add_zero])

/-- The sum over the middle axis of an `[a, b, c]` array, from the zero word, at `(i, k)`. -/
theorem sum_mid3_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  show ∑ j : Fin b, src (h.lift (ix2 i k) j) = _
  refine Finset.sum_congr rfl fun j _ => congrArg src (funext fun ax => Fin.ext ?_)
  match ax with
  | ⟨0, _⟩ => rfl
  | ⟨1, _⟩ => rfl
  | ⟨2, _⟩ => rfl

/-- The sum over the last axis of an `[a, b, c]` array, from the zero word, at `(i, j)`. -/
theorem sum_last3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  show ∑ k : Fin c, src (h.lift (ix2 i j) k) = _
  refine Finset.sum_congr rfl fun k _ => congrArg src (funext fun ax => Fin.ext ?_)
  match ax with
  | ⟨0, _⟩ => rfl
  | ⟨1, _⟩ => rfl
  | ⟨2, _⟩ => rfl

/-- The sum over the last axis of an `[a, b]` array, from the zero word, at `i`. -/
theorem sum_last2_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = _
  refine Finset.sum_congr rfl fun j _ => congrArg src (funext fun ax => Fin.ext ?_)
  match ax with
  | ⟨0, _⟩ => rfl
  | ⟨1, _⟩ => rfl

/-- The sum over the first axis of an `[a, b]` array, from the zero word, at `j`. -/
theorem sum_first2_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = _
  refine Finset.sum_congr rfl fun i _ => congrArg src (funext fun ax => Fin.ext ?_)
  match ax with
  | ⟨0, _⟩ => rfl
  | ⟨1, _⟩ => rfl

end Cert.LibAxisSums
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.KernelBlock.lean ====
/-
  One grid point of the pooling kernel, read at an entry of its output block on the extended reals.

  The body holds one batch item's 784 feature rows `X` (a [1,784,512] block), the assignment weights `W` [512,64],
  the bias `B` [64] and the centres `C` [64,512]. It forms the logits `X·W + B`, their row softmax `A` (shifted by
  the row supremum), the squared distances `(∑ X² − 2·X·Cᵀ) + ∑ C²`, the factor
  `U = A · rsqrt (max (A²·dist) ε)`, and stores `Uᵀ·X − (column sums of U)·C`. Entry (k, d) of the stored block is
  therefore `Vlad.kernelOut` of the rows, their assignment weights and the centres.
-/
import proofs.«129741_j66365834658084_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«129741_j66365834658084_2_alg».proof.Proof.VladLaw
import proofs.«129741_j66365834658084_2_alg».proof.Proof.LibMaxReduce
import proofs.«129741_j66365834658084_2_alg».proof.Proof.LibAxisSums
import proofs.«129741_j66365834658084_2_alg».proof.Proof.LibPlainMatmul
import proofs.«129741_j66365834658084_2_alg».proof.Proof.LibColumnCast
import proofs.«129741_j66365834658084_2_alg».proof.Proof.LibColumnBroadcast

noncomputable section

open scoped BigOperators

namespace Cert.KernelIdeal.Block

open Idealize.ShloMosaic Idealize.ShloMosaic.ValueIdx Cert.KernelIdeal Cert.KernelIdeal.Gen
open Cert.LibAxisSums Cert.LibColumnCast Cert.LibColumnBroadcast

/-! ## Two reductions of an [m, n] array read at an index -/

/-- A max-reduction over the column axis from -∞, at row a: the supremum of the row's entries. -/
theorem rowSup_apply {m n : ℕ} (Z : FVec Ideal ⟨2, ![m, n]⟩ .f32) (h : (⟨2, ![m, n]⟩ : Shape).Reduces [1] ⟨1, ![m]⟩)
    (hφ : FKind.Formats .f32) (hacc : (0xFF800000#32 : BitVec 32) = FKind.maximumf.neutral .f32 hφ) (a : Fin m) :
    multiReduction .maximumf [1] ⟨1, ![m]⟩ Z 0xFF800000#32 h hφ hacc (ix1 a) = ⨆ k : Fin n, Z (ix2 a k) := by
  refine (Cert.LibMaxReduce.multiReduction_maximumf_sup Z h hφ hacc (ix1 a)).trans ?_
  show (⨆ k : Fin n, Z (h.lift (ix1 a) k)) = _
  refine iSup_congr fun k => congrArg Z (funext fun ax => Fin.ext ?_)
  match ax with
  | ⟨0, _⟩ => rfl
  | ⟨1, _⟩ => rfl

/-! ## The body's stages, named -/

section Stages

variable (x0 : Vec Ideal S1x784x512 .f32) (x1 : Vec Ideal S512x64 .f32) (x2 : Vec Ideal S64 .f32)
  (x3 : Vec Ideal S64x512 .f32)

/-- The logits: the rows times the weights, plus the bias row. -/
def logitsArr : FVec Ideal S784x64 .f32 :=
  addf (matmul dot_S784x512_S512x64_S784x64_1_0_0_1_n_n none (truncf .bf16 (k0_pay2 x0) bitsLt_bf16_f32)
      (truncf .bf16 x1 bitsLt_bf16_f32) (constant (F := Ideal) S784x64 .f32 0x00000000#32))
    (broadcastTo S784x64 (shapeCast S1x64 x2 shapeCasts_S64_S1x64) broadcasts_S1x64_S784x64)

variable (L : FVec Ideal S784x64 .f32)

/-- Each row's supremum, repeated across the row. -/
def shiftArr : FVec Ideal S784x64 .f32 :=
  broadcastTo S784x64 (shapeCast S784x1
    (maximumf (broadcast S784 (Scalar.ofBits (F := Ideal) .f32 0xFF800000#32))
      (multiReduction .maximumf [1] S784 L 0xFF800000#32 reduces_S784x64_S784 (.inl rfl) rfl))
    shapeCasts_S784_S784x1) broadcasts_S784x1_S784x64

/-- The exponentials of the shifted logits. -/
def expArr : FVec Ideal S784x64 .f32 := exp (subf L (shiftArr L))

/-- Each row's sum of exponentials, repeated across the row. -/
def denomArr : FVec Ideal S784x64 .f32 :=
  broadcastTo S784x64 (shapeCast S784x1
    (multiReduction .add [1] S784 (expArr L) 0x00000000#32 reduces_S784x64_S784 (.inl rfl) rfl)
    shapeCasts_S784_S784x1) broadcasts_S784x1_S784x64

/-- The row softmax. -/
def softmaxArr : FVec Ideal S784x64 .f32 := divf (expArr L) (denomArr L)

variable (X : FVec Ideal S784x512 .f32) (C : FVec Ideal S64x512 .f32)

/-- The squared distances of the rows to the centres, by the expanded square. -/
def sqDiffArr : FVec Ideal S784x64 .f32 :=
  addf
    (subf
      (broadcastTo S784x64 (shapeCast S784x1
        (multiReduction .add [1] S784 (mulf X X) 0x00000000#32 reduces_S784x512_S784 (.inl rfl) rfl)
        shapeCasts_S784_S784x1) broadcasts_S784x1_S784x64)
      (mulf (broadcast S784x64 (Scalar.ofBits (F := Ideal) .f32 0x40000000#32))
        (matmul dot_S784x512_S512x64_S784x64_1_0_0_1_n_n (some .fp32) X
          (transpose S512x64 [1, 0] C transposes_S64x512_p1_0_S512x64)
          (constant (F := Ideal) S784x64 .f32 0x00000000#32))))
    (broadcastTo S784x64 (shapeCast S1x64
      (multiReduction .add [1] S64 (mulf C C) 0x00000000#32 reduces_S64x512_S64 (.inl rfl) rfl)
      shapeCasts_S64_S1x64) broadcasts_S1x64_S784x64)

variable (A Q U : FVec Ideal S784x64 .f32)

/-- The per-row, per-cluster factor. -/
def scaleArr : FVec Ideal S784x64 .f32 :=
  mulf A (rsqrt (maximumf (mulf (mulf A A) Q) (broadcast S784x64 (Scalar.ofBits (F := Ideal) .f32 0x2B8CBCCC#32))))

/-- The pooled block: the factors' transpose times the rows, minus their column sums times the centres. -/
def outArr : FVec Ideal S64x512 .f32 :=
  subf
    (matmul dot_S64x784_S784x512_S64x512_1_0_0_1_n_n (some .fp32)
      (transpose S64x784 [1, 0] U transposes_S784x64_p1_0_S64x784) X
      (constant (F := Ideal) S64x512 .f32 0x00000000#32))
    (mulf (broadcastTo S64x512 (shapeCast S64x1
      (multiReduction .add [0] S64 U 0x00000000#32 reduces_S784x64_S64 (.inl rfl) rfl)
      shapeCasts_S64_S64x1) broadcasts_S64x1_S64x512) C)

/-- The body's factor payload is these stages composed. -/
theorem pay3_eq :
    k0_pay3 x0 x1 x2 x3 = scaleArr (softmaxArr (logitsArr x0 x1 x2)) (sqDiffArr (k0_pay2 x0) x3) := rfl

/-- The body's stored payload is the pooled block with a unit axis in front. -/
theorem pay1_eq : k0_pay1 X C U = shapeCast S1x64x512 (outArr X C U) shapeCasts_S64x512_S1x64x512 := rfl

end Stages

/-! ## Each stage read at an entry -/

section Read

variable (x0 : Vec Ideal S1x784x512 .f32) (x1 : Vec Ideal S512x64 .f32) (x2 : Vec Ideal S64 .f32)
  (x3 : Vec Ideal S64x512 .f32)

/-- The block of rows without its unit axis. -/
theorem pay2_apply (s : Fin 784) (c : Fin 512) : k0_pay2 x0 (ix2 s c) = x0 (ix3 (0 : Fin 1) s c) :=
  shapeCast_1ab_ab_apply x0 shapeCasts_S1x784x512_S784x512 s c

/-- A logit is the row's product with a weight column plus the bias. -/
theorem logits_apply (s : Fin 784) (k : Fin 64) :
    logitsArr x0 x1 x2 (ix2 s k)
      = Cert.Vlad.logit (fun c k => x1 (ix2 c k)) (fun k => x2 (ix1 k)) (fun c => x0 (ix3 (0 : Fin 1) s c)) k := by
  unfold logitsArr Cert.Vlad.logit
  show matmul (DotDims.plain 784 512 64) none (truncf .bf16 (k0_pay2 x0) bitsLt_bf16_f32)
      (truncf .bf16 x1 bitsLt_bf16_f32) (constant (F := Ideal) ⟨2, ![784, 64]⟩ .f32 0x00000000#32) (ix2 s k)
      + broadcastTo S784x64 (shapeCast S1x64 x2 shapeCasts_S64_S1x64) broadcasts_S1x64_S784x64 (ix2 s k) = _
  rw [matmul_plain_zero_apply, broadcastTo_1b_ab_apply, shapeCast_a_1a_apply]
  refine congrArg (· + x2 (ix1 k)) (Finset.sum_congr rfl fun c _ => ?_)
  show k0_pay2 x0 (ix2 s c) * x1 (ix2 c k) = _
  rw [pay2_apply]

variable (L : FVec Ideal S784x64 .f32)

/-- The shift at (s, k) is the supremum of row s. -/
theorem shift_apply (s : Fin 784) (k : Fin 64) : shiftArr L (ix2 s k) = ⨆ j : Fin 64, L (ix2 s j) := by
  unfold shiftArr
  rw [broadcastTo_a1_ab_apply, shapeCast_a_a1_apply]
  show max (Ideal.ofBits .f32 0xFF800000#32)
      (multiReduction .maximumf [1] S784 L 0xFF800000#32 reduces_S784x64_S784 (.inl rfl) rfl (ix1 s)) = _
  rw [Cert.LibMaxReduce.ofBits_neg_inf, max_bot_left]
  exact rowSup_apply L reduces_S784x64_S784 (.inl rfl) rfl s

/-- An exponential of the shifted logits. -/
theorem exp_apply (s : Fin 784) (k : Fin 64) :
    expArr L (ix2 s k) = Ideal.exp (L (ix2 s k) - ⨆ j : Fin 64, L (ix2 s j)) := by
  show Ideal.exp (L (ix2 s k) - shiftArr L (ix2 s k)) = _
  rw [shift_apply]

/-- The softmax of row s at column k. -/
theorem softmax_apply (s : Fin 784) (k : Fin 64) :
    softmaxArr L (ix2 s k)
      = Ideal.div (Ideal.exp (L (ix2 s k) - ⨆ j : Fin 64, L (ix2 s j)))
          (∑ j : Fin 64, Ideal.exp (L (ix2 s j) - ⨆ i : Fin 64, L (ix2 s i))) := by
  show Ideal.div (expArr L (ix2 s k)) (denomArr L (ix2 s k)) = _
  have hD : denomArr L (ix2 s k) = ∑ j : Fin 64, Ideal.exp (L (ix2 s j) - ⨆ i : Fin 64, L (ix2 s i)) := by
    unfold denomArr
    rw [broadcastTo_a1_ab_apply, shapeCast_a_a1_apply]
    refine (sum_last2_apply (expArr L) reduces_S784x64_S784 (.inl rfl) rfl s).trans ?_
    exact Finset.sum_congr rfl fun j _ => exp_apply L s j
  rw [exp_apply, hD]

/-- The body's assignment weights are the soft assignment of each row. -/
theorem assign_apply (s : Fin 784) (k : Fin 64) :
    softmaxArr (logitsArr x0 x1 x2) (ix2 s k)
      = Cert.Vlad.assign (fun c k => x1 (ix2 c k)) (fun k => x2 (ix1 k)) (fun c => x0 (ix3 (0 : Fin 1) s c)) k := by
  rw [softmax_apply]
  unfold Cert.Vlad.assign
  simp only [logits_apply]

variable (X : FVec Ideal S784x512 .f32) (C : FVec Ideal S64x512 .f32)

/-- A squared distance, in its expanded form. -/
theorem sqDiff_apply (s : Fin 784) (k : Fin 64) :
    sqDiffArr X C (ix2 s k)
      = ((∑ c : Fin 512, X (ix2 s c) * X (ix2 s c)) - Cert.Vlad.two * (∑ c : Fin 512, X (ix2 s c) * C (ix2 k c)))
        + (∑ c : Fin 512, C (ix2 k c) * C (ix2 k c)) := by
  unfold sqDiffArr
  show (broadcastTo S784x64 (shapeCast S784x1 _ shapeCasts_S784_S784x1) broadcasts_S784x1_S784x64 (ix2 s k)
      - Ideal.ofBits .f32 0x40000000#32
        * matmul (DotDims.plain 784 512 64) (some .fp32) X (transpose S512x64 [1, 0] C transposes_S64x512_p1_0_S512x64)
            (constant (F := Ideal) ⟨2, ![784, 64]⟩ .f32 0x00000000#32) (ix2 s k))
      + broadcastTo S784x64 (shapeCast S1x64 _ shapeCasts_S64_S1x64) broadcasts_S1x64_S784x64 (ix2 s k) = _
  rw [broadcastTo_a1_ab_apply, shapeCast_a_a1_apply, matmul_plain_zero_apply, broadcastTo_1b_ab_apply,
    shapeCast_a_1a_apply]
  have h1 := sum_last2_apply (mulf X X) reduces_S784x512_S784 (.inl rfl) rfl s
  have h2 := sum_last2_apply (mulf C C) reduces_S64x512_S64 (.inl rfl) rfl k
  refine congr (congrArg HAdd.hAdd (congr (congrArg HSub.hSub h1) (congrArg (Cert.Vlad.two * ·) ?_))) h2
  exact Finset.sum_congr rfl fun c _ => congrArg (X (ix2 s c) * ·) (transpose_ix2_apply C transposes_S64x512_p1_0_S512x64 c k)

variable (A Q U : FVec Ideal S784x64 .f32)

/-- The factor at an entry. -/
theorem scale_apply (i : S784x64.Idx) :
    scaleArr A Q i = A i * Ideal.rsqrt (max ((A i * A i) * Q i) Cert.Vlad.eps) := rfl

/-- The pooled block at (k, d). -/
theorem out_apply (k : Fin 64) (d : Fin 512) :
    outArr X C U (ix2 k d)
      = (∑ s : Fin 784, U (ix2 s k) * X (ix2 s d)) - (∑ s : Fin 784, U (ix2 s k)) * C (ix2 k d) := by
  unfold outArr
  show matmul (DotDims.plain 64 784 512) (some .fp32) (transpose S64x784 [1, 0] U transposes_S784x64_p1_0_S64x784) X
        (constant (F := Ideal) ⟨2, ![64, 512]⟩ .f32 0x00000000#32) (ix2 k d)
      - broadcastTo S64x512 (shapeCast S64x1 _ shapeCasts_S64_S64x1) broadcasts_S64x1_S64x512 (ix2 k d) * C (ix2 k d) = _
  rw [matmul_plain_zero_apply, broadcastTo_a1_ab_apply, shapeCast_a_a1_apply]
  have h1 := sum_first2_apply U reduces_S784x64_S64 (.inl rfl) rfl k
  refine congr (congrArg HSub.hSub ?_) (congrArg (· * C (ix2 k d)) h1)
  exact Finset.sum_congr rfl fun s _ => congrArg (· * X (ix2 s d)) (transpose_ix2_apply U transposes_S784x64_p1_0_S64x784 k s)

end Read

/-! ## The stored block at an entry -/

/-- Entry (0, k, d) of what one grid point stores: the factored pooling of the point's rows. -/
theorem block_apply (x0 : Vec Ideal S1x784x512 .f32) (x1 : Vec Ideal S512x64 .f32) (x2 : Vec Ideal S64 .f32)
    (x3 : Vec Ideal S64x512 .f32) (u : Fin 1) (k : Fin 64) (d : Fin 512) :
    k0_pay1 (k0_pay2 x0) x3 (k0_pay3 x0 x1 x2 x3) (ix3 u k d)
      = Cert.Vlad.kernelOut (fun s c => x0 (ix3 (0 : Fin 1) s c))
          (fun s k => Cert.Vlad.assign (fun c k => x1 (ix2 c k)) (fun k => x2 (ix1 k))
            (fun c => x0 (ix3 (0 : Fin 1) s c)) k)
          (fun k c => x3 (ix2 k c)) k d := by
  rw [pay1_eq, shapeCast_ab_1ab_apply, out_apply, pay3_eq]
  unfold Cert.Vlad.kernelOut Cert.Vlad.scale
  simp only [scale_apply, assign_apply, sqDiff_apply, pay2_apply]

end Cert.KernelIdeal.Block

end
-- ==== Proof.VladTail.lean ====
/-
  The last normalisation, shared by both programs: a [4, 32768] array divided, row by row, by the square root of the
  row's floored squared norm, `v / √(max (∑ v²) ε)`, as the host spells it.
-/
import Idealize.ShloMosaic.PureOps
import Idealize.ShloMosaic.PureOps.Ideal

noncomputable section

namespace Cert.Vlad

open Idealize.ShloMosaic

/-- The row normalisation both programs end with, as one function of the pooled array. -/
def tail (v : FVec Ideal ⟨2, ![4, 32768]⟩ .f32) : FVec Ideal ⟨2, ![4, 32768]⟩ .f32 :=
  Host.divf v
    (broadcastInDim ⟨2, ![4, 32768]⟩ ![0, 1] (by decide)
      (Host.sqrt
        (maximumf
          (broadcastInDim ⟨2, ![4, 1]⟩ ![0] (by decide)
            (Host.reduceAdd (mulf v v) (constant (F := Ideal) ⟨0, ![]⟩ .f32 0x00000000#32)
              (by decide : (⟨2, ![4, 32768]⟩ : Shape).ReducesTo [1] ⟨1, ![4]⟩) (by decide)))
          (broadcastInDim ⟨2, ![4, 1]⟩ ![] (by decide) (constant (F := Ideal) ⟨0, ![]⟩ .f32 0x2B8CBCCC#32)))))

end Cert.Vlad

end
-- ==== Proof.KernelValue.lean ====
/-
  The pooling kernel's result as one function of the argument arrays.

  Grid point t holds batch item t: its input block is rows (t, ·, ·) of the flattened [4,784,512] feature array, its
  output block is (t, ·, ·) of the [4,64,512] pooled array, and the weights, bias and centres are whole at every
  point. The four output blocks tile the pooled array, so after the run entry (b, k, d) holds the factored pooling
  of batch item b's rows. The host lines after the region reshape it to [4, 32768] and normalise its rows.
-/
import proofs.«129741_j66365834658084_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic
import proofs.«129741_j66365834658084_2_alg».proof.Proof.KernelBlock
import proofs.«129741_j66365834658084_2_alg».proof.Proof.VladTail

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The pooled array as a function of the flattened features, the weights, the bias and the centres: entry
    (b, k, d) pools batch item b's 784 rows. -/
def pooled (xf : S4x784x512.Idx → EReal) (x1 : S512x64.Idx → EReal) (x2 : S64.Idx → EReal)
    (x3 : S64x512.Idx → EReal) : S4x64x512.Idx → EReal := fun i =>
  Cert.Vlad.kernelOut (fun s c => xf (ix3 (i 0 : Fin 4) s c))
    (fun s k => Cert.Vlad.assign (fun c k => x1 (ix2 c k)) (fun k => x2 (ix1 k))
      (fun c => xf (ix3 (i 0 : Fin 4) s c)) k)
    (fun k c => x3 (ix2 k c)) (i 1 : Fin 64) (i 2 : Fin 512)

/-- The printed index maps, decided over the grid: the feature and output windows sit at block (t, 0, 0), the
    others at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- A grid point as a batch index. -/
def bt (t : Fin cfg0.N) : Fin 4 := ⟨t.val, lt_of_lt_of_eq t.isLt N_0⟩

/-! ## The input blocks by coordinates -/

theorem iblk0_apply (c : Dev nD) (t : Fin cfg0.N) (s : Fin 784) (q : Fin 512) :
    (iblk m c 0 t : Vec Ideal S1x784x512 .f32) (ix3 (0 : Fin 1) s q)
      = (V m c main_v0 : S4x784x512.Idx → EReal) (ix3 (bt t) s q) := by
  obtain ⟨e0, e1, e2, -⟩ := idx_facts t
  unfold iblk
  rw [View.read_apply]
  show V m c main_v0 _ = V m c main_v0 _
  refine congrArg _ ?_
  funext a; apply Fin.ext
  match a with
  | ⟨0, _⟩ => show win0_0.index t (0 : Fin 3) * 1 + 1 * 0 = t.val; omega
  | ⟨1, _⟩ => show win0_0.index t (1 : Fin 3) * 784 + 1 * s.val = s.val; omega
  | ⟨2, _⟩ => show win0_0.index t (2 : Fin 3) * 512 + 1 * q.val = q.val; omega

theorem iblk1_apply (c : Dev nD) (t : Fin cfg0.N) (p : Fin 512) (q : Fin 64) :
    (iblk m c 1 t : Vec Ideal S512x64 .f32) (ix2 p q) = (V m c main_arg1 : S512x64.Idx → EReal) (ix2 p q) := by
  obtain ⟨-, -, -, e0, e1, -⟩ := idx_facts t
  unfold iblk
  rw [View.read_apply]
  show V m c main_arg1 _ = V m c main_arg1 _
  refine congrArg _ ?_
  funext a; apply Fin.ext
  match a with
  | ⟨0, _⟩ => show win0_1.index t (0 : Fin 2) * 512 + 1 * p.val = p.val; omega
  | ⟨1, _⟩ => show win0_1.index t (1 : Fin 2) * 64 + 1 * q.val = q.val; omega

theorem iblk2_apply (c : Dev nD) (t : Fin cfg0.N) (q : Fin 64) :
    (iblk m c 2 t : Vec Ideal S64 .f32) (ix1 q) = (V m c main_arg2 : S64.Idx → EReal) (ix1 q) := by
  obtain ⟨-, -, -, -, -, e0, -⟩ := idx_facts t
  unfold iblk
  rw [View.read_apply]
  show V m c main_arg2 _ = V m c main_arg2 _
  refine congrArg _ ?_
  funext a; apply Fin.ext
  match a with
  | ⟨0, _⟩ => show win0_2.index t (0 : Fin 1) * 64 + 1 * q.val = q.val; omega

theorem iblk3_apply (c : Dev nD) (t : Fin cfg0.N) (p : Fin 64) (q : Fin 512) :
    (iblk m c 3 t : Vec Ideal S64x512 .f32) (ix2 p q) = (V m c main_arg3 : S64x512.Idx → EReal) (ix2 p q) := by
  obtain ⟨-, -, -, -, -, -, e0, e1, -⟩ := idx_facts t
  unfold iblk
  rw [View.read_apply]
  show V m c main_arg3 _ = V m c main_arg3 _
  refine congrArg _ ?_
  funext a; apply Fin.ext
  match a with
  | ⟨0, _⟩ => show win0_3.index t (0 : Fin 2) * 64 + 1 * p.val = p.val; omega
  | ⟨1, _⟩ => show win0_3.index t (1 : Fin 2) * 512 + 1 * q.val = q.val; omega

/-! ## From the blocks to the array -/

/-- What point t writes back is block t of the pooled array. -/
theorem flushed_eq (c : Dev nD) (t : Fin cfg0.N) :
    (dats m 0 c).flushed 4 t = ((cfg0.win 4).blk t).view.read (Elt Ideal)
      (pooled (V m c main_v0) (V m c main_arg1) (V m c main_arg2) (V m c main_arg3)) := by
  show (cfg0.win 4).cut (grid0.coords t) ((dats m 0 c).after 4 t) = _
  rw [after0_4]
  unfold out0_4
  rw [View.canon_unit_zero hz3]
  simp only [View.ld_unit_zero (S := S1x784x512) hz3, View.ld_unit_zero (S := S512x64) hz2,
    View.ld_unit_zero (S := S64) hz1, View.ld_unit_zero (S := S64x512) hz2]
  refine funext fun (j : S1x64x512.Idx) => ?_
  obtain ⟨u, k, d, rfl⟩ : ∃ (u : Fin 1) (k : Fin 64) (d : Fin 512), j = ix3 u k d := ⟨j 0, j 1, j 2, eq_ix3 j⟩
  rw [View.read_apply]
  show k0_pay1 (k0_pay2 (iblk m c 0 t)) (iblk m c 3 t)
      (k0_pay3 (iblk m c 0 t) (iblk m c 1 t) (iblk m c 2 t) (iblk m c 3 t)) (ix3 u k d) = _
  refine (Cert.KernelIdeal.Block.block_apply (iblk m c 0 t) (iblk m c 1 t) (iblk m c 2 t) (iblk m c 3 t) u k d).trans ?_
  obtain ⟨-, -, -, -, -, -, -, -, e0, e1, e2⟩ := idx_facts t
  have he : ((cfg0.win 4).blk t).view.emb (ix3 u k d) = ix3 (bt t) k d := by
    funext a; apply Fin.ext
    have hu : u.val < 1 := u.isLt
    match a with
    | ⟨0, _⟩ => show win0_4.index t (0 : Fin 3) * 1 + 1 * u.val = t.val; omega
    | ⟨1, _⟩ => show win0_4.index t (1 : Fin 3) * 64 + 1 * k.val = k.val; omega
    | ⟨2, _⟩ => show win0_4.index t (2 : Fin 3) * 512 + 1 * d.val = d.val; omega
  rw [he]
  unfold pooled
  simp only [iblk0_apply, iblk1_apply, iblk2_apply, iblk3_apply]
  rfl

/-- An index of the pooled array is in point t's block iff each coordinate is in the block's range. -/
theorem mem_blk (t : Fin cfg0.N) (i : S4x64x512.Idx) :
    i ∈ ((cfg0.win 4).blk t).view.set ↔ ∀ a : Fin 3, win0_4.index t a * S1x64x512.size a ≤ (i a).val
      ∧ (i a).val < win0_4.index t a * S1x64x512.size a + S1x64x512.size a := by
  show i ∈ ((View.whole main_v1).slice (win0_4.rect t)).set ↔ _
  rw [View.set_slice_whole, Rect.mem_set_unit]
  exact Iff.rfl

/-- Every index of the pooled array is in the block of the point of its batch coordinate. -/
theorem cover (i : S4x64x512.Idx) :
    ∃ t : Fin cfg0.N, (cfg0.win 4).flush t = true ∧ i ∈ ((cfg0.win 4).blk t).view.set := by
  have h0 : (i 0).val < 4 := (i 0).isLt
  have h1 : (i 1).val < 64 := (i 1).isLt
  have h2 : (i 2).val < 512 := (i 2).isLt
  refine ⟨⟨(i 0).val, lt_of_lt_of_eq h0 N_0.symm⟩, flush0_4 _, ?_⟩
  rw [mem_blk]
  obtain ⟨-, -, -, -, -, -, -, -, e0, e1, e2⟩ := idx_facts ⟨(i 0).val, lt_of_lt_of_eq h0 N_0.symm⟩
  have e0' : win0_4.index ⟨(i 0).val, lt_of_lt_of_eq h0 N_0.symm⟩ (0 : Fin 3) = (i 0).val := e0
  intro a
  match a with
  | ⟨0, _⟩ =>
    show win0_4.index ⟨(i 0).val, lt_of_lt_of_eq h0 N_0.symm⟩ (0 : Fin 3) * 1 ≤ (i 0).val
      ∧ (i 0).val < win0_4.index ⟨(i 0).val, lt_of_lt_of_eq h0 N_0.symm⟩ (0 : Fin 3) * 1 + 1
    omega
  | ⟨1, _⟩ =>
    show win0_4.index ⟨(i 0).val, lt_of_lt_of_eq h0 N_0.symm⟩ (1 : Fin 3) * 64 ≤ (i 1).val
      ∧ (i 1).val < win0_4.index ⟨(i 0).val, lt_of_lt_of_eq h0 N_0.symm⟩ (1 : Fin 3) * 64 + 64
    omega
  | ⟨2, _⟩ =>
    show win0_4.index ⟨(i 0).val, lt_of_lt_of_eq h0 N_0.symm⟩ (2 : Fin 3) * 512 ≤ (i 2).val
      ∧ (i 2).val < win0_4.index ⟨(i 0).val, lt_of_lt_of_eq h0 N_0.symm⟩ (2 : Fin 3) * 512 + 512
    omega

/-- The pooled array after the run. -/
theorem final (c : Dev nD) :
    (dats m 0 c).arrAt 4 cfg0.N
      = pooled (V m c main_v0) (V m c main_arg1) (V m c main_arg2) (V m c main_arg3) :=
  (dats m 0 c).arrAt_eq_of_cover 4 _ (fun t _ => flushed_eq m c t) cover

/-! ## The host lines around the region -/

/-- The region finds the features flattened to [4, 784, 512]. -/
theorem V_main_v0 (c : Dev nD) :
    (V m c main_v0 : S4x784x512.Idx → EReal)
      = shapeCast S4x784x512 (m ((c : Thread nD τ).loc main_arg0)) shapeCasts_S4x28x28x512_S4x784x512 := by
  show StableHlo.after hostOps0 (fun b => m (c, b)) (Proc.devRef .tc main_v0) = _
  after_results
  rfl

/-- The lines after the region: the pooled array reshaped to [4, 32768] and its rows normalised. -/
theorem tail_eq (c : Dev nD) :
    Pipeline.afterTail₀ cfgs (dats m) 0 (V0 m) [hostOps1] c main_v10
      = Cert.Vlad.tail (shapeCast S4x32768 ((dats m 0 c).arrAt 4 cfg0.N) shapeCasts_S4x64x512_S4x32768) := by
  unfold Pipeline.afterTail₀
  show StableHlo.after hostOps1 _ (Proc.devRef .tc main_v10) = _
  after_results
  have e : Pipeline.withArrays (cfgs 0).spec c (V0 m c) (fun w => (dats m 0 c).arrAt w (cfgs 0).N)
      (Proc.tc.devRef main_v1) = (dats m 0 c).arrAt 4 cfg0.N :=
    Pipeline.withArrays_arr spec0 launch0.win.arr_inj c _ _ 4
  rw [e]
  unfold Cert.Vlad.tail
  rfl

/-- The kernel program's result as a function of its arguments: the flattened features pooled, reshaped and
    normalised. -/
def result (c : Dev nD) : FVec Ideal ⟨2, ![4, 32768]⟩ .f32 :=
  Cert.Vlad.tail (shapeCast S4x32768
    (pooled (shapeCast S4x784x512 (m ((c : Thread nD τ).loc main_arg0)) shapeCasts_S4x28x28x512_S4x784x512)
      (m ((c : Thread nD τ).loc main_arg1)) (m ((c : Thread nD τ).loc main_arg2))
      (m ((c : Thread nD τ).loc main_arg3))) shapeCasts_S4x64x512_S4x32768)

/-- What the lines after the region leave in the result buffer. -/
theorem result_eq (c : Dev nD) :
    Pipeline.afterTail₀ cfgs (dats m) 0 (V0 m) [hostOps1] c main_v10 = result m c := by
  rw [tail_eq, final, V_main_v0, V_main_arg1, V_main_arg2, V_main_arg3]
  rfl

/-- The run, read: every weakly fair execution terminates with the result buffer at `result` and the arguments
    unchanged. -/
theorem run : θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KValue

end
-- ==== Proof.RefValue.lean ====
/-
  The reference program's pooled array, read at an entry on the extended reals.

  The host softly assigns every feature row x(b,h,w,·) to the 64 clusters, weights the residuals x − c by the
  assignment, divides each weighted residual by the square root of its floored squared norm over the feature axis,
  and sums over the 28 × 28 positions. Entry (b, k, d) of the result is therefore the double sum over (h, w) of
  `Vlad.refTerm` of the row's assignment weight, the row and the centre.
-/
import proofs.«129741_j66365834658084_2_alg».proof.Proof.Gen.ReferenceIdeal.Read
import Idealize.ShloMosaic.Lib.ValueIdx
import Idealize.ShloMosaic.PureOps.Ideal.Laws
import proofs.«129741_j66365834658084_2_alg».proof.Proof.VladLaw
import proofs.«129741_j66365834658084_2_alg».proof.Proof.LibMaxReduce

noncomputable section

open scoped BigOperators

namespace Cert.ReferenceIdeal.RefValue

open Idealize.ShloMosaic Idealize.ShloMosaic.ValueIdx Cert.ReferenceIdeal Cert.ReferenceIdeal.Gen
  Cert.ReferenceIdeal.Read

macro "idx_rank1" : tactic => `(tactic| (funext a; apply Fin.ext; match a with | ⟨0, _⟩ => rfl))
macro "idx_rank2" : tactic => `(tactic| (funext a; apply Fin.ext; match a with | ⟨0, _⟩ => rfl | ⟨1, _⟩ => rfl))
macro "idx_rank3" : tactic =>
  `(tactic| (funext a; apply Fin.ext; match a with | ⟨0, _⟩ => rfl | ⟨1, _⟩ => rfl | ⟨2, _⟩ => rfl))
macro "idx_rank4" : tactic =>
  `(tactic| (funext a; apply Fin.ext; match a with | ⟨0, _⟩ => rfl | ⟨1, _⟩ => rfl | ⟨2, _⟩ => rfl | ⟨3, _⟩ => rfl))
macro "idx_rank5" : tactic =>
  `(tactic| (funext a; apply Fin.ext; match a with | ⟨0, _⟩ => rfl | ⟨1, _⟩ => rfl | ⟨2, _⟩ => rfl | ⟨3, _⟩ => rfl | ⟨4, _⟩ => rfl))

/-- The logits' shape with its cluster axis reduced. -/
theorem red3 : S4x28x28x64.Reduces [3] S4x28x28 := by decide

/-! ## The sum over the two spatial axes -/

/-- The host's sum over axes 1 and 2 of a [4,28,28,64,512] array, at (b, k, d): the initial value plus the double
    sum over the two dropped coordinates. -/
theorem sum_space (y : S4x28x28x64x512.Idx → EReal) (init : EReal) (b : Fin 4) (k : Fin 64) (d : Fin 512) :
    Ideal.hostReduceAdd reducesTo_S4x28x28x64x512_S4x64x512_d1_2 y init (ix3 b k d)
      = init + ∑ h : Fin 28, ∑ w : Fin 28, y (ix5 b h w k d) := by
  unfold Ideal.hostReduceAdd
  refine congrArg (init + ·) ?_
  rw [← Fintype.sum_prod_type']
  symm
  refine Finset.sum_bij' (fun p _ => ix5 b p.1 p.2 k d) (fun i _ => ((i 1 : Fin 28), (i 2 : Fin 28))) ?_ ?_ ?_ ?_ ?_
  · intro p _
    refine Finset.mem_filter.mpr ⟨Finset.mem_univ _, ?_⟩
    idx_rank3
  · intro i _; exact Finset.mem_univ _
  · intro p _; rfl
  · intro i hi
    have hi' := (Finset.mem_filter.mp hi).2
    have e0 : (i 0).val = b.val := congrArg Fin.val (congrFun hi' 0)
    have e3 : (i 3).val = k.val := congrArg Fin.val (congrFun hi' 1)
    have e4 : (i 4).val = d.val := congrArg Fin.val (congrFun hi' 2)
    funext a; apply Fin.ext
    match a with
    | ⟨0, _⟩ => exact e0.symm
    | ⟨1, _⟩ => rfl
    | ⟨2, _⟩ => rfl
    | ⟨3, _⟩ => exact e3.symm
    | ⟨4, _⟩ => exact e4.symm
  · intro p _; rfl

section Read

variable (x0 : (⟨S4x28x28x512, .f32⟩ : BufTy).Contents (Elt Ideal)) (x1 : (⟨S512x64, .f32⟩ : BufTy).Contents (Elt Ideal))
  (x2 : (⟨S64, .f32⟩ : BufTy).Contents (Elt Ideal)) (x3 : (⟨S64x512, .f32⟩ : BufTy).Contents (Elt Ideal))

/-- The feature row at batch b, position (h, w). -/
abbrev row (b : Fin 4) (h w : Fin 28) : Fin 512 → EReal := fun c => x0 (ix4 b h w c)
/-- The assignment weights, the bias and the centres by coordinates. -/
abbrev Wm : Fin 512 → Fin 64 → EReal := fun c k => x1 (ix2 c k)
abbrev Bv : Fin 64 → EReal := fun k => x2 (ix1 k)
abbrev Cm : Fin 64 → Fin 512 → EReal := fun k c => x3 (ix2 k c)

/-- A logit of the row at (b, h, w). -/
theorem v3_at (b : Fin 4) (h w : Fin 28) (k : Fin 64) :
    val_main_v3 (F := Ideal) x0 x1 x2 (ix4 b h w k) = Cert.Vlad.logit (Wm x1) (Bv x2) (row x0 b h w) k := by
  rw [val_main_v3_apply, val_main_v0_apply, val_main_v2_apply, val_main_v1_apply]
  unfold Cert.Vlad.logit
  show (∑ c : Fin 512, x0 (lidx_main_v0 (ix4 b h w k) c) * x1 (ridx_main_v0 (ix4 b h w k) c))
      + x2 (idx_main_v1 (idx_main_v2 (ix4 b h w k))) = _
  have e1 : ∀ c : Fin 512, lidx_main_v0 (ix4 b h w k) c = ix4 b h w c := fun c => by idx_rank4
  have e2 : ∀ c : Fin 512, ridx_main_v0 (ix4 b h w k) c = ix2 c k := fun c => by idx_rank2
  have e3 : idx_main_v1 (idx_main_v2 (ix4 b h w k)) = ix1 k := by idx_rank1
  simp only [e1, e2, e3]

/-- The shift the host subtracts is the supremum of the row's logits. -/
theorem v6_at (b : Fin 4) (h w : Fin 28) :
    val_main_v6 (F := Ideal) x0 x1 x2 (ix3 b h w) = ⨆ k : Fin 64, Cert.Vlad.logit (Wm x1) (Bv x2) (row x0 b h w) k := by
  rw [val_main_v6_apply, val_main_v5_apply, val_main_cst_0_apply]
  unfold val_main_v4
  rw [Host.reduce_eq_fold_single FloatOps.maximumf _ _ reducesTo_S4x28x28x64_S4x28x28_d3
    red3 h_S_ (ix3 b h w)]
  show max (Ideal.ofBits .f32 0xFF800000#32)
    ((Finset.univ : Finset (Fin 64)).fold max (Ideal.ofBits .f32 0xFF800000#32)
      (val_main_v3 (F := Ideal) x0 x1 x2 ∘ red3.lift (ix3 b h w))) = _
  rw [Cert.LibMaxReduce.ofBits_neg_inf, max_bot_left]
  refine (Cert.LibMaxReduce.fold_max_bot _).trans ?_
  refine iSup_congr fun k => ?_
  show val_main_v3 (F := Ideal) x0 x1 x2 (red3.lift (ix3 b h w) k) = _
  refine Eq.trans ?_ (v3_at x0 x1 x2 b h w k)
  refine congrArg (val_main_v3 (F := Ideal) x0 x1 x2) ?_
  idx_rank4

/-- An exponential of the shifted logits. -/
theorem v10_at (b : Fin 4) (h w : Fin 28) (k : Fin 64) :
    val_main_v10 (F := Ideal) x0 x1 x2 (ix4 b h w k)
      = Ideal.exp (Cert.Vlad.logit (Wm x1) (Bv x2) (row x0 b h w) k
          - ⨆ j : Fin 64, Cert.Vlad.logit (Wm x1) (Bv x2) (row x0 b h w) j) := by
  rw [val_main_v10_apply, val_main_v9_apply, val_main_v8_apply, val_main_v7_apply]
  have e : idx_main_v7 (idx_main_v8 (ix4 b h w k)) = ix3 b h w := by idx_rank3
  rw [e, v6_at, v3_at]
  rfl

/-- The host's assignment weight is the soft assignment of the row. -/
theorem v14_at (b : Fin 4) (h w : Fin 28) (k : Fin 64) :
    val_main_v14 (F := Ideal) x0 x1 x2 (ix4 b h w k) = Cert.Vlad.assign (Wm x1) (Bv x2) (row x0 b h w) k := by
  rw [val_main_v14_apply, val_main_v13_apply, val_main_v12_apply]
  have e : idx_main_v12 (idx_main_v13 (ix4 b h w k)) = ix3 b h w := by idx_rank3
  rw [e, val_main_v11_apply, val_main_cst_1_apply, v10_at]
  have e' : ∀ j : Fin 64, idx_main_v11 (ix3 b h w) j = ix4 b h w j := fun j => by idx_rank4
  simp only [e', v10_at]
  unfold Cert.Vlad.assign
  show Ideal.div _ (Ideal.ofBits .f32 0x00000000#32 + _) = _
  rw [Ideal.ofBits_zero_f32, zero_add]

/-- A weighted residual. -/
theorem v22_at (b : Fin 4) (h w : Fin 28) (k : Fin 64) (d : Fin 512) :
    val_main_v22 (F := Ideal) x0 x1 x2 x3 (ix5 b h w k d)
      = Cert.Vlad.assign (Wm x1) (Bv x2) (row x0 b h w) k * (x0 (ix4 b h w d) - x3 (ix2 k d)) := by
  rw [val_main_v22_apply, val_main_v21_apply, val_main_v15_apply, val_main_v20_apply, val_main_v18_apply,
    val_main_v16_apply, val_main_v19_apply, val_main_v17_apply]
  have e1 : idx_main_v15 (idx_main_v21 (ix5 b h w k d)) = ix4 b h w k := by idx_rank4
  have e2 : idx_main_v16 (idx_main_v18 (ix5 b h w k d)) = ix4 b h w d := by idx_rank4
  have e3 : idx_main_v17 (idx_main_v19 (ix5 b h w k d)) = ix2 k d := by idx_rank2
  rw [e1, e2, e3, v14_at]
  rfl

/-- A normalised weighted residual. -/
theorem v30_at (b : Fin 4) (h w : Fin 28) (k : Fin 64) (d : Fin 512) :
    val_main_v30 (F := Ideal) x0 x1 x2 x3 (ix5 b h w k d)
      = Cert.Vlad.refTerm (Cert.Vlad.assign (Wm x1) (Bv x2) (row x0 b h w) k) (row x0 b h w) (Cm x3 k) d := by
  rw [val_main_v30_apply, val_main_v29_apply, val_main_v28_apply, val_main_v27_apply, val_main_v25_apply,
    val_main_v26_apply, val_main_cst_3_apply]
  have e1 : idx_main_v25 (idx_main_v29 (ix5 b h w k d)) = ix4 b h w k := by idx_rank4
  rw [e1, val_main_v24_apply, val_main_cst_2_apply, v22_at]
  have e2 : ∀ c : Fin 512, idx_main_v24 (ix4 b h w k) c = ix5 b h w k c := fun c => by idx_rank5
  simp only [e2, val_main_v23_apply, v22_at]
  unfold Cert.Vlad.refTerm
  show Ideal.div _ (Ideal.sqrt (max (Ideal.ofBits .f32 0x00000000#32 + _) (Ideal.ofBits .f32 0x2B8CBCCC#32))) = _
  rw [Ideal.ofBits_zero_f32, zero_add]
  rfl

/-- **The pooled array at (b, k, d).** -/
theorem v31_at (b : Fin 4) (k : Fin 64) (d : Fin 512) :
    val_main_v31 (F := Ideal) x0 x1 x2 x3 (ix3 b k d)
      = ∑ h : Fin 28, ∑ w : Fin 28,
          Cert.Vlad.refTerm (Cert.Vlad.assign (Wm x1) (Bv x2) (row x0 b h w) k) (row x0 b h w) (Cm x3 k) d := by
  unfold val_main_v31
  show Ideal.hostReduceAdd reducesTo_S4x28x28x64x512_S4x64x512_d1_2 (val_main_v30 (F := Ideal) x0 x1 x2 x3)
    (Ideal.ofBits .f32 0x00000000#32) (ix3 b k d) = _
  rw [sum_space, Ideal.ofBits_zero_f32, zero_add]
  simp only [v30_at]

end Read

end Cert.ReferenceIdeal.RefValue

end
-- ==== Proof.LibSumFinMul.lean ====
/-
  A sum over the positions of a row-major flattening of an m×n grid is the double sum over rows and columns.

  Position k of `Fin (m * n)` is `q + n * p` for exactly one row p and column q (Mathlib's `finProdFinEquiv`), so in any
  commutative additive monoid the sum over the positions is the iterated sum over p and q of the term at that position.
-/
import Mathlib.Algebra.BigOperators.Fin
import Mathlib.Logic.Equiv.Fin.Basic

open scoped BigOperators

namespace SumFinMul

/-- `∑ k : Fin (m * n), f k = ∑ p, ∑ q, f (q + n * p)`. -/
theorem sum_fin_mul {M : Type*} [AddCommMonoid M] (m n : ℕ) (f : Fin (m * n) → M) :
    ∑ k, f k = ∑ p : Fin m, ∑ q : Fin n, f (finProdFinEquiv (p, q)) := by
  rw [← Equiv.sum_comp finProdFinEquiv f, Fintype.sum_prod_type]

/-- The position of row p, column q. -/
theorem finProdFinEquiv_val {m n : ℕ} (p : Fin m) (q : Fin n) : (finProdFinEquiv (p, q)).val = q.val + n * p.val := rfl

end SumFinMul
-- ==== Proof.Finite.lean ====
/-
  The precondition read entry by entry: every float input finite means every entry of the four argument arrays is a
  real number (an extended real whose absolute value is strictly below +∞).
-/
import proofs.«129741_j66365834658084_2_alg».proof.Pre_finite_inputs
import proofs.«129741_j66365834658084_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws
import proofs.«129741_j66365834658084_2_alg».proof.Proof.LibBatchNorm
import proofs.«129741_j66365834658084_2_alg».proof.Proof.LibERealFinite

noncomputable section

namespace Cert.Pre_finite_inputs.Finite

open Idealize.ShloMosaic Cert.Pre_finite_inputs Cert.Pre_finite_inputs.Gen Cert.LibBatchNorm

/-- A rank-zero array has one index. -/
instance : Subsingleton S_.Idx := ⟨fun a b => funext fun d => d.elim0⟩

/-- Under the precondition every entry of every argument array is a real number. -/
theorem real_of_pre (x0 : FVec Ideal S4x28x28x512 .f32) (x1 : FVec Ideal S512x64 .f32) (x2 : FVec Ideal S64 .f32)
    (x3 : FVec Ideal S64x512 .f32) (h : fn (F := Ideal) x0 x1 x2 x3 = fun _ => 1#1) :
    (∀ i, IsReal (x0 i)) ∧ (∀ i, IsReal (x1 i)) ∧ (∀ i, IsReal (x2 i)) ∧ (∀ i, IsReal (x3 i)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact Cert.LibERealFinite.real_of_abs_lt (x0 i) (Host.reduce_andi_all _ _ _ _ _ h0' i)
  · exact Cert.LibERealFinite.real_of_abs_lt (x1 i) (Host.reduce_andi_all _ _ _ _ _ h1 i)
  · exact Cert.LibERealFinite.real_of_abs_lt (x2 i) (Host.reduce_andi_all _ _ _ _ _ h2 i)
  · exact Cert.LibERealFinite.real_of_abs_lt (x3 i) (Host.reduce_andi_all _ _ _ _ _ h3 i)

end Cert.Pre_finite_inputs.Finite

end
-- ==== Proof.Bridge.lean ====
/-
  The kernel's pooled array is the reference's.

  The kernel sees the features flattened: position s of batch item b is (h, w) = (s / 28, s % 28). Entry (b, k, d)
  of the kernel's pooled array is the factored pooling over s : Fin 784 of those rows; the reference's is the double
  sum over (h, w) of the direct form. At real entries the two forms agree row by row (`Vlad.kernelOut_eq_refOut`),
  and a sum over the 784 positions is the double sum over the 28 × 28 grid.
-/
import proofs.«129741_j66365834658084_2_alg».proof.Proof.KernelValue
import proofs.«129741_j66365834658084_2_alg».proof.Proof.RefValue
import proofs.«129741_j66365834658084_2_alg».proof.Proof.LibSumFinMul
import proofs.«129741_j66365834658084_2_alg».proof.Proof.Finite

noncomputable section

open scoped BigOperators

namespace Cert.Vlad.Bridge

open Idealize.ShloMosaic Idealize.ShloMosaic.ValueIdx Cert.LibBatchNorm

/-- A sum over the 784 flattened positions is the double sum over the 28 × 28 grid. -/
theorem sum_positions {M : Type*} [AddCommMonoid M] (f : Fin 784 → M) :
    ∑ s, f s = ∑ h : Fin 28, ∑ w : Fin 28, f ⟨w.val + 28 * h.val, by have := w.isLt; have := h.isLt; omega⟩ := by
  refine (SumFinMul.sum_fin_mul 28 28 f).trans ?_
  exact Finset.sum_congr rfl fun h _ => Finset.sum_congr rfl fun w _ => congrArg f (Fin.ext rfl)

/-- The flattened features at (b, s, c) are the features at (b, h, w, c) when s is position (h, w). -/
theorem flat_apply (x0 : Cert.KernelIdeal.S4x28x28x512.Idx → EReal)
    (hc : Cert.KernelIdeal.S4x28x28x512.ShapeCasts Cert.KernelIdeal.S4x784x512) (b : Fin 4) (h w : Fin 28)
    (s : Fin 784) (c : Fin 512) (hs : s.val = w.val + 28 * h.val) :
    shapeCast Cert.KernelIdeal.S4x784x512 x0 hc (ix3 b s c) = x0 (ix4 b h w c) :=
  shapeCast_apply x0 hc _ _ (by
    rw [Shape.rowMajor_val_four, Shape.rowMajor_val_three]
    show ((b.val * 28 + h.val) * 28 + w.val) * 512 + c.val = (b.val * 784 + s.val) * 512 + c.val
    omega)

/-- **With real entries the kernel's pooled array is the reference's.** -/
theorem pooled_eq_ref (x0 : Cert.KernelIdeal.S4x28x28x512.Idx → EReal) (x1 : Cert.KernelIdeal.S512x64.Idx → EReal)
    (x2 : Cert.KernelIdeal.S64.Idx → EReal) (x3 : Cert.KernelIdeal.S64x512.Idx → EReal)
    (hc : Cert.KernelIdeal.S4x28x28x512.ShapeCasts Cert.KernelIdeal.S4x784x512)
    (h0 : ∀ i, IsReal (x0 i)) (h1 : ∀ i, IsReal (x1 i)) (h2 : ∀ i, IsReal (x2 i)) (h3 : ∀ i, IsReal (x3 i)) :
    Cert.KernelIdeal.KValue.pooled (shapeCast Cert.KernelIdeal.S4x784x512 x0 hc) x1 x2 x3
      = Cert.ReferenceIdeal.Read.val_main_v31 (F := Ideal) x0 x1 x2 x3 := by
  funext i
  obtain ⟨b, k, d, rfl⟩ : ∃ (b : Fin 4) (k : Fin 64) (d : Fin 512), i = ix3 b k d := ⟨i 0, i 1, i 2, eq_ix3 i⟩
  rw [Cert.ReferenceIdeal.RefValue.v31_at]
  unfold Cert.KernelIdeal.KValue.pooled
  show Cert.Vlad.kernelOut (fun s c => shapeCast Cert.KernelIdeal.S4x784x512 x0 hc (ix3 b s c))
      (fun s k => Cert.Vlad.assign (fun c k => x1 (ix2 c k)) (fun k => x2 (ix1 k))
        (fun c => shapeCast Cert.KernelIdeal.S4x784x512 x0 hc (ix3 b s c)) k)
      (fun k c => x3 (ix2 k c)) k d = _
  have hrow : ∀ (s : Fin 784) (c : Fin 512), shapeCast Cert.KernelIdeal.S4x784x512 x0 hc (ix3 b s c)
      = x0 (ix4 b ⟨s.val / 28, by have := s.isLt; omega⟩ ⟨s.val % 28, Nat.mod_lt _ (by decide)⟩ c) := fun s c =>
    flat_apply x0 hc b _ _ s c (by show s.val = s.val % 28 + 28 * (s.val / 28); omega)
  simp only [hrow]
  rw [Cert.Vlad.kernelOut_eq_refOut _ _ _ (fun s c => h0 _)
    (fun s k => Cert.Vlad.assign_real (by decide) _ _ _ (fun c k => h1 _) (fun k => h2 _) (fun c => h0 _) k)
    (fun k c => h3 _)]
  unfold Cert.Vlad.refOut
  rw [sum_positions]
  refine Finset.sum_congr rfl fun h _ => Finset.sum_congr rfl fun w _ => ?_
  have e1 : (⟨(w.val + 28 * h.val) / 28, by have := w.isLt; have := h.isLt; omega⟩ : Fin 28) = h :=
    Fin.ext (by show (w.val + 28 * h.val) / 28 = h.val; have := w.isLt; omega)
  have e2 : (⟨(w.val + 28 * h.val) % 28, Nat.mod_lt _ (by decide)⟩ : Fin 28) = w :=
    Fin.ext (by show (w.val + 28 * h.val) % 28 = w.val; have := w.isLt; omega)
  show Cert.Vlad.refTerm
      (Cert.Vlad.assign (fun c k => x1 (ix2 c k)) (fun k => x2 (ix1 k))
        (fun c => x0 (ix4 b ⟨(w.val + 28 * h.val) / 28, _⟩ ⟨(w.val + 28 * h.val) % 28, _⟩ c)) k)
      (fun c => x0 (ix4 b ⟨(w.val + 28 * h.val) / 28, _⟩ ⟨(w.val + 28 * h.val) % 28, _⟩ c))
      (fun c => x3 (ix2 k c)) d = _
  rw [e1, e2]

end Cert.Vlad.Bridge

end
-- ==== Proof.lean ====
/-
  Soft-assignment residual pooling (a VLAD layer): the Pallas kernel against its jnp reference, on the extended reals.

  Both programs softly assign each of the 4 × 784 feature rows to 64 clusters (a softmax of x·W + b), weight the
  residuals x − c by the assignment, normalise each weighted residual over the feature axis by
  √(max (∑ r²) ε), sum over the positions, and finally normalise each batch item's [64·512] vector the same way.
  The reference forms every residual; the kernel factors the sum: with u = a · rsqrt (max (a² · ‖x − c‖²) ε) and
  ‖x − c‖² expanded as ∑x² − 2·x·c + ∑c², the pooled entry is ∑ₛ u·x − (∑ₛ u)·c. At real entries the two are equal
  (Proof/VladLaw.lean); the precondition (every input finite) gives real entries (Proof/Finite.lean). The kernel's
  pooled array is read off its frame run block by block (Proof/KernelBlock.lean, Proof/KernelValue.lean), the
  reference's off its run operation by operation (Proof/RefValue.lean); the last normalisation is one function
  applied to both (Proof/VladTail.lean). The idealization rewrote nothing, so `preserves` is trivial.
-/
import proofs.«129741_j66365834658084_2_alg».proof.Defs
import proofs.«129741_j66365834658084_2_alg».proof.Proof.Gen.Kernel
import proofs.«129741_j66365834658084_2_alg».proof.Proof.Gen.Kernel.Skeleton
import proofs.«129741_j66365834658084_2_alg».proof.Proof.Gen.Kernel.Launch
import proofs.«129741_j66365834658084_2_alg».proof.Proof.Gen.Kernel.Points
import proofs.«129741_j66365834658084_2_alg».proof.Proof.Gen.Kernel.Frame
import proofs.«129741_j66365834658084_2_alg».proof.Proof.Gen.KernelIdeal
import proofs.«129741_j66365834658084_2_alg».proof.Proof.Gen.KernelIdeal.Skeleton
import proofs.«129741_j66365834658084_2_alg».proof.Proof.Gen.KernelIdeal.Launch
import proofs.«129741_j66365834658084_2_alg».proof.Proof.Gen.KernelIdeal.Points
import proofs.«129741_j66365834658084_2_alg».proof.Proof.Gen.KernelIdeal.Frame
import proofs.«129741_j66365834658084_2_alg».proof.Proof.Gen.ReferenceIdeal
import proofs.«129741_j66365834658084_2_alg».proof.Proof.Gen.ReferenceIdeal.Run
import proofs.«129741_j66365834658084_2_alg».proof.Proof.Gen.ReferenceIdeal.Read
import proofs.«129741_j66365834658084_2_alg».proof.Proof.Gen.Pre_finite_inputs
import proofs.«129741_j66365834658084_2_alg».proof.Proof.KernelValue
import proofs.«129741_j66365834658084_2_alg».proof.Proof.RefValue
import proofs.«129741_j66365834658084_2_alg».proof.Proof.Bridge
import proofs.«129741_j66365834658084_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result: the shared row
    normalisation of one pooled array. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v40 m' c = Cert.KernelIdeal.KValue.result m c
  rw [Cert.ReferenceIdeal.Read.val_main_v40_eq, (hagree c).1, (hagree c).2.1, (hagree c).2.2.1, (hagree c).2.2.2]
  obtain ⟨r0, r1, r2, r3⟩ := Cert.Pre_finite_inputs.Finite.real_of_pre _ _ _ _ (hpre c)
  unfold Cert.KernelIdeal.KValue.result
  rw [Cert.Vlad.Bridge.pooled_eq_ref _ _ _ _ _ r0 r1 r2 r3]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
